-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S2x100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 145
  | .vmem => 21
  | .smem => 0
  | _ => 0

abbrev hbmTy0_0 (i : Nat) : BufTy := match i % 128 with
  | 0 => ⟨S50000x128, .f32⟩
  | 1 => ⟨S2x800000, .i32⟩
  | 2 => ⟨S2x100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x1, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x1, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000x1, .f32⟩
  | 115 => ⟨S50000x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S1x100000, .i32⟩
  | 122 => ⟨S100000, .i32⟩
  | 123 => ⟨S1x100000, .i32⟩
  | 124 => ⟨S100000, .i32⟩
  | 125 => ⟨S_, .i32⟩
  | 126 => ⟨S100000, .i32⟩
  | 127 => ⟨S100000, .i1⟩
  | _ => ⟨S50000x128, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x64, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x64, .f32⟩
  | 15 => ⟨S100000x1, .f32⟩
  | 16 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x1, .f32⟩
  | .local _ .vmem, ⟨20, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_c_11 : Ref sig .tc := ⟨.hbm, 98, rfl⟩
abbrev main_v72 : Ref sig .tc := ⟨.hbm, 99, rfl⟩
abbrev main_v73 : Ref sig .tc := ⟨.hbm, 100, rfl⟩
abbrev main_c_12 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_14 : Ref sig .tc := ⟨.hbm, 125, rfl⟩
abbrev main_v96 : Ref sig .tc := ⟨.hbm, 126, rfl⟩
abbrev main_v97 : Ref sig .tc := ⟨.hbm, 127, rfl⟩
abbrev main_c_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_16 : Ref sig .tc := ⟨.hbm, 134, rfl⟩
abbrev main_v103 : Ref sig .tc := ⟨.hbm, 135, rfl⟩
abbrev main_v104 : Ref sig .tc := ⟨.hbm, 136, rfl⟩
abbrev main_c_17 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S100000x1_S100000x64_1_0_n_n_0_1_164_wf : GatherDims.WF S50000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v102) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v109) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v110) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x100000 : Shape := ⟨2, ![2, 100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S2x100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x1, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x1, .f32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S50000, .f32⟩
  | 117 => ⟨S50000x1, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x64, .f32⟩
  | _ => ⟨S50000x128, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S50000, .f32⟩
  | 9 => ⟨S50000, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x1, .f32⟩
  | 39 => ⟨S800000x64, .f32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S50000, .f32⟩
  | 46 => ⟨S50000x1, .f32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S1x100000, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x64, .f32⟩
  | 64 => ⟨S1x100000, .i32⟩
  | 65 => ⟨S100000, .i32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S100000x64, .f32⟩
  | 75 => ⟨S100000x64, .f32⟩
  | 76 => ⟨S_, .f32⟩
  | 77 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_v95 : Ref sig .tc := ⟨.hbm, 129, rfl⟩
abbrev main_cst_19 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_21 : Ref sig .tc := ⟨.hbm, 138, rfl⟩
abbrev main_v102 : Ref sig .tc := ⟨.hbm, 139, rfl⟩
abbrev main_v103 : Ref sig .tc := ⟨.hbm, 140, rfl⟩
abbrev main_c_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_23 : Ref sig .tc := ⟨.hbm, 147, rfl⟩
abbrev main_v109 : Ref sig .tc := ⟨.hbm, 148, rfl⟩
abbrev main_v110 : Ref sig .tc := ⟨.hbm, 149, rfl⟩
abbrev main_c_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_25 : Ref sig .tc := ⟨.hbm, 157, rfl⟩
abbrev main_v117 : Ref sig .tc := ⟨.hbm, 158, rfl⟩
abbrev main_v118 : Ref sig .tc := ⟨.hbm, 159, rfl⟩
abbrev main_c_26 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_27 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_28 : Ref sig .tc := ⟨.hbm, 183, rfl⟩
abbrev main_v140 : Ref sig .tc := ⟨.hbm, 184, rfl⟩
abbrev main_v141 : Ref sig .tc := ⟨.hbm, 185, rfl⟩
abbrev main_c_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_c_30 : Ref sig .tc := ⟨.hbm, 194, rfl⟩
abbrev main_v149 : Ref sig .tc := ⟨.hbm, 195, rfl⟩
abbrev main_v150 : Ref sig .tc := ⟨.hbm, 196, rfl⟩
abbrev main_c_31 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_32 : Ref sig .tc := ⟨.hbm, 204, rfl⟩
abbrev main_v157 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x64_S100000_d1 : S100000x64.ReducesTo [1] S100000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S100000x1_S100000x64_1_0_n_n_0_1_164_wf : GatherDims.WF S50000x64 S100000x1 S100000x64 [1] [0] [] [0] [] 1 ![1, 64]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf

class Facts : Prop extends Facts₀ where

variable [Facts]
-- ==== Proof.KernelRun.lean ====
/-
  The idealized kernel program's run, with its result array named.

  The program is four dense regions among stretches of host operations. Its buffer contents at each boundary form a
  fold from the launch memory: a host stretch applies its operations, a region replaces its arrays by what its grid
  points write back and leaves every other buffer alone. Every weakly fair execution terminates, without a fault, in
  a state whose unscoped buffers hold the last boundary's contents; read at the result's buffer this says the result
  array is the fold's value there.
-/
import proofs.«104224_j18820546691088_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents. -/
theorem run_result : θ_run defs (onTc (τ := τ) (main (F := F))) ⟨m, fun _ => 0, ρ⟩ (fun r => ∀ c : Dev nD,
      r.2.mem ((c.tc : Thread nD τ).loc main_v111) = W11 m ρ c (Proc.devRef .tc main_v111)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c _ (mem_uc main_v111 (by decide)))

end Cert.KernelIdeal.ResultRun

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibColumnOps.lean ====
/-
  Columns and vectors read at coordinates.

  A vector of A entries and an A × 1 column hold the same numbers: the cast of one to the other, either way, and the
  broadcast_in_dim [A] → [A, 1] along axis 0, read at row a, are the vector at a (the column at (a, 0)). A scalar broadcast to any shape is the scalar everywhere.
  Column k of an A × B matrix, sliced out and recast as a vector, is the matrix at (a, k).
  Six A × 1 columns laid side by side (concatenate, axis 1) form an A × 6 matrix whose entry (a, k) is column k at
  (a, 0); two such columns form an A × 2 matrix likewise.
  A point gather — operand [N, C], start indices [R, 2], both operand axes collapsed, slices of one element — reads at e
  the operand at (row, column), the two components of start index e read signed and clamped into the operand's extents.
  Every statement is over arbitrary extents and spells indices by their coordinates.
-/
import Idealize.ShloMosaic.Lib.ValueIdx
import Idealize.ShloMosaic.Lib.Pipeline.Value

noncomputable section

namespace Cert.LibColumnOps

open Idealize.ShloMosaic Idealize.ShloMosaic.ValueIdx

variable {α : Type}

/-- The one column index. -/
abbrev z1 : Fin 1 := ⟨0, Nat.one_pos⟩

/-- A vector recast as a column, at (a, z): the vector at a. -/
theorem col_of_vec {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have hz : z.val = 0 := by have := z.isLt; omega
  rw [hz]; omega

/-- A column recast as a vector, at a: the column at (a, 0). -/
theorem vec_of_col {A : ℕ} (x : (⟨2, ![A, 1]⟩ : Shape).Idx → α)
    (h : (⟨2, ![A, 1]⟩ : Shape).ShapeCasts ⟨1, ![A]⟩) (a : Fin A) :
    shapeCast ⟨1, ![A]⟩ x h (ix1 a) = x (ix2 a z1) := by
  refine shapeCast_apply x h _ _ ?_
  rw [Shape.rowMajor_val_one, Shape.rowMajor_val_two]
  show a.val * 1 + 0 = a.val
  omega

/-- Column k of a matrix, cut out as an A × 1 slice and recast as a vector, at a: the matrix at (a, k). -/
theorem col_vec {A B : ℕ} (off : ℕ) (M : (⟨2, ![A, B]⟩ : Shape).Idx → α)
    (h : (⟨2, ![A, B]⟩ : Shape).Slices ![0, off] ⟨2, ![A, 1]⟩) (h' : (⟨2, ![A, 1]⟩ : Shape).ShapeCasts ⟨1, ![A]⟩)
    (a : Fin A) (k : Fin B) (hk : k.val = off) :
    shapeCast ⟨1, ![A]⟩ (extractStridedSlice ⟨2, ![A, 1]⟩ ![0, off] M h) h' (ix1 a) = M (ix2 a k) :=
  (vec_of_col _ h' a).trans (extractStridedSlice_apply ![0, off] M h (ix2 a z1) (ix2 a k) fun d => by
    match d with
    | ⟨0, _⟩ => show a.val = 0 + a.val; omega
    | ⟨1, _⟩ => show k.val = off + 0; omega)

/-- A vector broadcast along axis 0 into a column, at (a, z): the vector at a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    by_cases hA : A = 1
    · rw [if_pos hA]; have := a.isLt; omega
    · rw [if_neg hA]

/-- A scalar broadcast to any shape, at any index: the scalar. -/
theorem bcast_scalar {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun a => a.elim0

/-- Column k of six side by side, at (a, k). -/
theorem cols6_apply {A : ℕ} (x : Fin 6 → (⟨2, ![A, 1]⟩ : Shape).Idx → α)
    (h : Shape.Concatenates [⟨2, ![A, 1]⟩, ⟨2, ![A, 1]⟩, ⟨2, ![A, 1]⟩, ⟨2, ![A, 1]⟩, ⟨2, ![A, 1]⟩, ⟨2, ![A, 1]⟩] ⟨2, ![A, 6]⟩ 1)
    (a : Fin A) (k : Fin 6) :
    concatenate ⟨2, ![A, 6]⟩ 1 [⟨⟨2, ![A, 1]⟩, x 0⟩, ⟨⟨2, ![A, 1]⟩, x 1⟩, ⟨⟨2, ![A, 1]⟩, x 2⟩, ⟨⟨2, ![A, 1]⟩, x 3⟩,
      ⟨⟨2, ![A, 1]⟩, x 4⟩, ⟨⟨2, ![A, 1]⟩, x 5⟩] h (ix2 a k) = x k (ix2 a z1) := by
  have hi : ∀ (k' : Fin 6) (b : Fin 2), b.cast rfl ≠ (1 : Fin 2) → ((ix2 a z1 : (⟨2, ![A, 1]⟩ : Shape).Idx) b).val
      = ((ix2 a k' : (⟨2, ![A, 6]⟩ : Shape).Idx) (b.cast rfl)).val := fun k' b hb => by
    match b with
    | ⟨0, _⟩ => rfl
    | ⟨1, _⟩ => exact absurd rfl hb
  have go : ∀ (n : Nat) (hn : n < 6), concatenate ⟨2, ![A, 6]⟩ 1 [⟨⟨2, ![A, 1]⟩, x 0⟩, ⟨⟨2, ![A, 1]⟩, x 1⟩, ⟨⟨2, ![A, 1]⟩, x 2⟩,
      ⟨⟨2, ![A, 1]⟩, x 3⟩, ⟨⟨2, ![A, 1]⟩, x 4⟩, ⟨⟨2, ![A, 1]⟩, x 5⟩] h (ix2 a ⟨n, hn⟩) = x ⟨n, hn⟩ (ix2 a z1) := fun n hn =>
    concatenate_apply_piece (t := ⟨2, ![A, 6]⟩) 1
      [⟨⟨2, ![A, 1]⟩, x 0⟩, ⟨⟨2, ![A, 1]⟩, x 1⟩, ⟨⟨2, ![A, 1]⟩, x 2⟩, ⟨⟨2, ![A, 1]⟩, x 3⟩, ⟨⟨2, ![A, 1]⟩, x 4⟩, ⟨⟨2, ![A, 1]⟩, x 5⟩]
      h (ix2 a ⟨n, hn⟩) n hn ⟨2, ![A, 1]⟩ (x ⟨n, hn⟩)
      (by
        match n, hn with
        | 0, _ => rfl
        | 1, _ => rfl
        | 2, _ => rfl
        | 3, _ => rfl
        | 4, _ => rfl
        | 5, _ => rfl)
      rfl n
      (by
        match n, hn with
        | 0, _ => rfl
        | 1, _ => rfl
        | 2, _ => rfl
        | 3, _ => rfl
        | 4, _ => rfl
        | 5, _ => rfl)
      (ix2 a z1) (hi ⟨n, hn⟩) (Nat.add_zero n)
  exact go k.val k.isLt

/-- One of six things, by position. -/
def pick6 {β : Type} (y0 y1 y2 y3 y4 y5 : β) : Fin 6 → β
  | ⟨0, _⟩ => y0 | ⟨1, _⟩ => y1 | ⟨2, _⟩ => y2 | ⟨3, _⟩ => y3 | ⟨4, _⟩ => y4 | ⟨5, _⟩ => y5

/-- Six named columns side by side, at (a, k): the k-th of them at (a, 0). -/
theorem cols6_pick {A : ℕ} (x0 x1 x2 x3 x4 x5 : (⟨2, ![A, 1]⟩ : Shape).Idx → α)
    (h : Shape.Concatenates [⟨2, ![A, 1]⟩, ⟨2, ![A, 1]⟩, ⟨2, ![A, 1]⟩, ⟨2, ![A, 1]⟩, ⟨2, ![A, 1]⟩, ⟨2, ![A, 1]⟩] ⟨2, ![A, 6]⟩ 1)
    (a : Fin A) (k : Fin 6) :
    concatenate ⟨2, ![A, 6]⟩ 1 [⟨⟨2, ![A, 1]⟩, x0⟩, ⟨⟨2, ![A, 1]⟩, x1⟩, ⟨⟨2, ![A, 1]⟩, x2⟩, ⟨⟨2, ![A, 1]⟩, x3⟩,
      ⟨⟨2, ![A, 1]⟩, x4⟩, ⟨⟨2, ![A, 1]⟩, x5⟩] h (ix2 a k) = pick6 x0 x1 x2 x3 x4 x5 k (ix2 a z1) :=
  cols6_apply (pick6 x0 x1 x2 x3 x4 x5) h a k

/-- The left of two columns side by side, at (a, 0). -/
theorem cols2_left {A : ℕ} (x₁ x₂ : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, x₁⟩, ⟨⟨2, ![A, 1]⟩, x₂⟩] h (ix2 a (0 : Fin 2)) = x₁ (ix2 a z1) :=
  concatenate_pair_apply_left 1 x₁ x₂ h _ rfl (ix2 a z1) fun b => by
    match b with
    | ⟨0, _⟩ => rfl
    | ⟨1, _⟩ => rfl

/-- The right of two columns side by side, at (a, 1). -/
theorem cols2_right {A : ℕ} (x₁ x₂ : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, x₁⟩, ⟨⟨2, ![A, 1]⟩, x₂⟩] h (ix2 a (1 : Fin 2)) = x₂ (ix2 a z1) :=
  concatenate_pair_apply_right 1 x₁ x₂ h _ rfl rfl (ix2 a z1)
    (fun b hb => by
      match b with
      | ⟨0, _⟩ => rfl
      | ⟨1, _⟩ => exact absurd rfl hb)
    rfl

/-! ## The point gather -/

/-- The dimension numbers of a point gather: operand [N, C], start indices [R, 2], result [R]. -/
abbrev pointDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- A start-index component, read signed and clamped into an axis of extent n. -/
def clampTo {w : Nat} (n : Nat) (hn : 0 < n) (v : BitVec w) : Fin n := ⟨min v.toInt.toNat (n - 1), by omega⟩

/-- THE POINT GATHER READ AT e: the operand at the clamped (row, column) start index e holds. -/
theorem gather_points_apply {N C R w : Nat} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (e : Fin R) :
    Host.gather (pointDims N C R wf) x idx (ix1 e)
      = x (ix2 (clampTo N hN (idx (ix2 e (0 : Fin 2)))) (clampTo C hC (idx (ix2 e (1 : Fin 2))))) := by
  unfold Host.gather
  refine congrArg x ?_
  funext a
  refine Fin.ext ?_
  show (pointDims N C R wf).start (ix1 e) idx a + (pointDims N C R wf).batchCoord (ix1 e) a
      + (pointDims N C R wf).offCoord (ix1 e) a = _
  rw [GatherDims.batchCoord_eq_zero _ _ _ List.not_mem_nil, Nat.add_zero]
  match a with
  | ⟨0, _⟩ =>
    show (pointDims N C R wf).start (ix1 e) idx (0 : Fin 2) + (pointDims N C R wf).offCoord (ix1 e) (0 : Fin 2)
      = (clampTo N hN (idx (ix2 e (0 : Fin 2)))).val
    rw [GatherDims.offCoord_eq_zero _ _ _
      (fun h => ((GatherDims.mem_sKept _ _).mp h).1 (List.mem_cons_self)), Nat.add_zero]
    unfold GatherDims.start
    rw [dif_pos (show (0 : Fin 2) ∈ (pointDims N C R wf).startIndexMap from List.mem_cons_self)]
    have hsi : (pointDims N C R wf).siIdx (ix1 e) ⟨List.idxOf (0 : Fin 2) (pointDims N C R wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  | ⟨1, _⟩ =>
    show (pointDims N C R wf).start (ix1 e) idx (1 : Fin 2) + (pointDims N C R wf).offCoord (ix1 e) (1 : Fin 2)
      = (clampTo C hC (idx (ix2 e (1 : Fin 2)))).val
    rw [GatherDims.offCoord_eq_zero _ _ _
      (fun h => ((GatherDims.mem_sKept _ _).mp h).1 (List.mem_cons_of_mem _ List.mem_cons_self)), Nat.add_zero]
    unfold GatherDims.start
    rw [dif_pos (show (1 : Fin 2) ∈ (pointDims N C R wf).startIndexMap from List.mem_cons_of_mem _ List.mem_cons_self)]
    have hsi : (pointDims N C R wf).siIdx (ix1 e) ⟨List.idxOf (1 : Fin 2) (pointDims N C R wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    rfl

end Cert.LibColumnOps

end
-- ==== Proof.LibRowScale.lean ====
/-
  Scaling the rows of a matrix by a per-row factor, at the extended reals.

  A vector of per-row factors `v : [A]` is stretched along the rows of an `[A, B]` matrix in two host steps, `[A] → [A, 1]`
  (dims 0) and `[A, 1] → [A, B]` (dims 0, 1); read at `(a, b)` the result is `v a`. With the factor `1 / max (c a) 1`,
  multiplying the matrix by the stretched factor is dividing it by the stretched `max (c a) 1`: the divisor is at least one,
  so it is not zero, and a quotient by a non-zero extended real is the product with its inverse — for every extended real
  numerator and every extended real `c a`, infinite ones included. The float word `0x3F800000` denotes the real one.
-/
import Idealize.ShloMosaic.PureOps.Ideal.Laws
import Idealize.ShloMosaic.Lib.ValueIdx
import Idealize.ShloMosaic.Lib.Pipeline.Value

noncomputable section

namespace Cert.LibRowScale

open Idealize.ShloMosaic Idealize.ShloMosaic.ValueIdx

/-- The float word of `1.0` denotes the real one. -/
theorem one_word : Ideal.ofBits .f32 0x3F800000#32 = 1 := by
  simp [Ideal.ofBits, Ideal.ieee, -EReal.coe_mul]; norm_num

/-- `max c 1` is not zero, whatever `c`. -/
theorem max_one_ne_zero (c : EReal) : max c 1 ≠ 0 :=
  ne_of_gt (lt_of_lt_of_le (by exact_mod_cast (zero_lt_one : (0 : ℝ) < 1)) (le_max_right c 1))

/-- `a · (1 / max c 1) = a / max c 1` on the extended reals. -/
theorem mul_recip (a c : EReal) : a * Ideal.div 1 (max c 1) = Ideal.div a (max c 1) := by
  rw [Ideal.div, Ideal.div, if_neg (max_one_ne_zero c), if_neg (max_one_ne_zero c), one_mul]

variable {α : Type}

/-- `[A]` laid into `[A, 1]` (dims 0), at `(a, z)`: the operand at `a`. -/
theorem hb_a_a1 {A : ℕ} (h : (⟨1, ![A]⟩ : Shape).BroadcastsInDim ⟨2, ![A, 1]⟩ ![0])
    (x : (⟨1, ![A]⟩ : Shape).Idx → α) (a : Fin A) (z : Fin 1) :
    broadcastInDim ⟨2, ![A, 1]⟩ ![0] h x (ix2 a z) = x (ix1 a) := by
  refine broadcastInDim_apply _ h x _ _ fun d => ?_
  match d with
  | ⟨0, _⟩ =>
    show a.val = if A = 1 then 0 else a.val
    split_ifs with hA
    · have := a.isLt; omega
    · rfl

/-- `[A, 1]` stretched to `[A, B]` (dims 0, 1), at `(a, b)`: the operand at `(a, 0)`. -/
theorem hb_a1_ab {A B : ℕ} (h : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] h x (ix2 a b) = x (ix2 a 0) := by
  refine broadcastInDim_apply _ h x _ _ fun d => ?_
  match d with
  | ⟨0, _⟩ =>
    show a.val = if A = 1 then 0 else a.val
    split_ifs with hA
    · have := a.isLt; omega
    · rfl
  | ⟨1, _⟩ => rfl

/-- A per-row factor stretched along the rows, at `(a, b)`: the factor of row `a`. -/
theorem rowStretch_apply {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) :=
  (hb_a1_ab h2 _ a b).trans (hb_a_a1 h1 v a 0)

/-- A scalar broadcast to any shape, at any index: the scalar. -/
theorem hb_scalar {t : Shape} (h : (⟨0, ![]⟩ : Shape).BroadcastsInDim t ![])
    (x : (⟨0, ![]⟩ : Shape).Idx → α) (j : t.Idx) :
    broadcastInDim t ![] h x j = x ix0 :=
  broadcastInDim_apply _ h x _ _ fun d => d.elim0

/-- The matrix times the stretched `1 / max c 1` is the matrix divided by the stretched `max c 1`, the ones being
    the float word of `1.0` broadcast. -/
theorem mul_stretched_recip {A B : ℕ} (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1])
    (M : FVec Ideal ⟨2, ![A, B]⟩ .f32) (c : FVec Ideal ⟨1, ![A]⟩ .f32) :
    mulf M (broadcastInDim ⟨2, ![A, B]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf c (broadcastInDim ⟨1, ![A]⟩ ![] h0 (constant (F := Ideal) ⟨0, ![]⟩ .f32 0x3F800000#32))))))
      = Host.divf M (broadcastInDim ⟨2, ![A, B]⟩ ![0, 1] h2 (broadcastInDim ⟨2, ![A, 1]⟩ ![0] h1
          (maximumf c (broadcastInDim ⟨1, ![A]⟩ ![] h0 (constant (F := Ideal) ⟨0, ![]⟩ .f32 0x3F800000#32))))) := by
  funext i
  obtain ⟨a, b, rfl⟩ : ∃ (a : Fin A) (b : Fin B), i = ix2 a b := ⟨i 0, i 1, eq_ix2 i⟩
  have e1 : ∀ j : (⟨1, ![A]⟩ : Shape).Idx,
      broadcastInDim ⟨1, ![A]⟩ ![] h0 (constant (F := Ideal) ⟨0, ![]⟩ .f32 0x3F800000#32) j = (1 : EReal) :=
    fun j => (hb_scalar h0 _ j).trans one_word
  show M (ix2 a b) * _ = Ideal.div (M (ix2 a b)) _
  rw [rowStretch_apply h1 h2 _ a b, rowStretch_apply h1 h2 _ a b]
  show M (ix2 a b) * Ideal.div _ (max (c (ix1 a)) _) = Ideal.div (M (ix2 a b)) (max (c (ix1 a)) _)
  rw [e1]
  exact mul_recip _ _

end Cert.LibRowScale

end
-- ==== Proof.LibArrayForms.lean ====
/-
  Whole-array forms of a few host and kernel operations, over the extended reals.

  Four functions of whole arrays: the product of an [A,K] matrix with a [K,B] matrix, entry by entry the sum over the
  contracted coordinate (`matProd`); the rows of an [A,B] matrix each multiplied by one of A factors (`scaleRows`); one
  number added to every entry of a matrix (`addScalar`); the entrywise maximum with zero (`relu`). And the spellings
  they take in a printed program, each proved equal to the function as a whole array, at any extents: the host's product
  with one contracted axis (the record's facts taken as hypotheses; at a literal record they hold by computation); a
  vector of factors stretched in two host steps [A] → [A,1] → [A,B] and multiplied in from the left, and the same
  vector held as an [A,1] column and multiplied in from the right (multiplication commutes on the extended reals, so no
  finiteness is needed); the maximum with a stretched zero word; a one-entry bias stretched [1] → [1,1] → [A,1] and
  added, and the same bias held as a 1 x 1 matrix.
-/
import Idealize.ShloMosaic.PureOps.Ideal.Laws
import Idealize.ShloMosaic.Lib.ValueIdx
import Idealize.ShloMosaic.Lib.Pipeline.Value
import proofs.«104224_j18820546691088_1_alg».proof.Proof.LibColumnBlocks
import proofs.«104224_j18820546691088_1_alg».proof.Proof.LibColumnOps
import proofs.«104224_j18820546691088_1_alg».proof.Proof.LibRowScale

noncomputable section

namespace Cert.Gcn

open Idealize.ShloMosaic Idealize.ShloMosaic.ValueIdx

/-- The product of an [A,K] matrix with a [K,B] matrix, entry by entry: the sum over the contracted coordinate. -/
def matProd {A K B : ℕ} (X : FVec Ideal ⟨2, ![A, K]⟩ .f32) (W : FVec Ideal ⟨2, ![K, B]⟩ .f32) : FVec Ideal ⟨2, ![A, B]⟩ .f32 :=
  fun i => ∑ k : Fin K, X (ix2 (i 0) k) * W (ix2 k (i 1))

/-- Row `e` of an [A,B] matrix multiplied by the `e`-th of A factors. -/
def scaleRows {A B : ℕ} (f : FVec Ideal ⟨1, ![A]⟩ .f32) (G : FVec Ideal ⟨2, ![A, B]⟩ .f32) : FVec Ideal ⟨2, ![A, B]⟩ .f32 :=
  fun i => f (ix1 (i 0)) * G i

/-- One number added to every entry of a matrix. -/
def addScalar {A B : ℕ} (M : FVec Ideal ⟨2, ![A, B]⟩ .f32) (b : FVec Ideal ⟨1, ![1]⟩ .f32) : FVec Ideal ⟨2, ![A, B]⟩ .f32 :=
  fun i => M i + b (ix1 0)

/-- The entrywise maximum with zero. -/
def relu {A B : ℕ} (M : FVec Ideal ⟨2, ![A, B]⟩ .f32) : FVec Ideal ⟨2, ![A, B]⟩ .f32 :=
  fun i => max (M i) 0

/-! ## The printed forms of the four functions -/

/-- A per-row factor stretched along the rows and multiplied in from the left. -/
theorem hostScale {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (f : FVec Ideal ⟨1, ![A]⟩ .f32) (G : FVec Ideal ⟨2, ![A, B]⟩ .f32) :
    mulf (broadcastInDim ⟨2, ![A, B]⟩ ![0, 1] h2 (broadcastInDim ⟨2, ![A, 1]⟩ ![0] h1 f)) G = scaleRows f G := by
  funext i
  obtain ⟨a, b, rfl⟩ : ∃ (a : Fin A) (b : Fin B), i = ix2 a b := ⟨i 0, i 1, eq_ix2 i⟩
  rw [mulf_apply, Cert.LibRowScale.rowStretch_apply h1 h2 f a b]
  rfl

/-- A per-row factor held as a column and multiplied in from the right. -/
theorem colScale {A B : ℕ} (h : (⟨1, ![A]⟩ : Shape).ShapeCasts ⟨2, ![A, 1]⟩)
    (f : FVec Ideal ⟨1, ![A]⟩ .f32) (G : FVec Ideal ⟨2, ![A, B]⟩ .f32) :
    (fun i => G i * (shapeCast ⟨2, ![A, 1]⟩ f h : FVec Ideal ⟨2, ![A, 1]⟩ .f32) (ix2 (i 0) (0 : Fin 1))) = scaleRows f G := by
  funext i
  show G i * (shapeCast ⟨2, ![A, 1]⟩ f h) (ix2 (i 0) (0 : Fin 1)) = f (ix1 (i 0)) * G i
  rw [Cert.LibColumnOps.col_of_vec f h (i 0) (0 : Fin 1)]
  exact mul_comm _ _

/-- The maximum with a stretched zero. -/
theorem hostRelu {A B : ℕ} (h : (⟨0, ![]⟩ : Shape).BroadcastsInDim ⟨2, ![A, B]⟩ ![])
    (M : FVec Ideal ⟨2, ![A, B]⟩ .f32) :
    maximumf M (broadcastInDim ⟨2, ![A, B]⟩ ![] h (constant (F := Ideal) ⟨0, ![]⟩ .f32 0x00000000#32)) = relu M := by
  funext i
  rw [maximumf_apply, Cert.LibColumnOps.bcast_scalar _ h i, constant_apply, Ideal.ofBits_zero_f32]
  rfl

/-- A one-entry bias stretched over a matrix and added. -/
theorem hostBias {A : ℕ} (h1 : (⟨1, ![1]⟩ : Shape).BroadcastsInDim ⟨2, ![1, 1]⟩ ![1])
    (h2 : (⟨2, ![1, 1]⟩ : Shape).BroadcastsInDim ⟨2, ![A, 1]⟩ ![0, 1])
    (M : FVec Ideal ⟨2, ![A, 1]⟩ .f32) (b : FVec Ideal ⟨1, ![1]⟩ .f32) :
    addf M (broadcastInDim ⟨2, ![A, 1]⟩ ![0, 1] h2 (broadcastInDim ⟨2, ![1, 1]⟩ ![1] h1 b)) = addScalar M b := by
  funext i
  rw [addf_apply]
  refine congrArg (M i + ·) ?_
  refine (broadcastInDim_apply _ h2 _ i (ix2 (0 : Fin 1) (0 : Fin 1)) fun a => ?_).trans ?_
  · match a with
    | ⟨0, _⟩ => rfl
    | ⟨1, _⟩ => rfl
  · refine broadcastInDim_apply _ h1 b _ (ix1 (0 : Fin 1)) fun a => ?_
    match a with
    | ⟨0, _⟩ => rfl

/-- A one-entry bias held as a 1 x 1 matrix and added. -/
theorem cellBias {A : ℕ} (h : (⟨1, ![1]⟩ : Shape).ShapeCasts ⟨2, ![1, 1]⟩)
    (M : FVec Ideal ⟨2, ![A, 1]⟩ .f32) (b : FVec Ideal ⟨1, ![1]⟩ .f32) :
    (fun i => M i + (shapeCast ⟨2, ![1, 1]⟩ b h : FVec Ideal ⟨2, ![1, 1]⟩ .f32) (ix2 (0 : Fin 1) (0 : Fin 1))) = addScalar M b := by
  funext i
  show M i + (shapeCast ⟨2, ![1, 1]⟩ b h) (ix2 (0 : Fin 1) (0 : Fin 1)) = M i + b (ix1 0)
  rw [Cert.LibColumnOps.col_of_vec b h (0 : Fin 1) (0 : Fin 1)]

/-- The host's product with one contracted axis, whole. -/
theorem hostDot {A K B : ℕ} (d : DotDims ⟨2, ![A, K]⟩ ⟨2, ![K, B]⟩ ⟨2, ![A, B]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (X : FVec Ideal ⟨2, ![A, K]⟩ .f32) (W : FVec Ideal ⟨2, ![K, B]⟩ .f32) :
    Host.dotGeneral d none X W = matProd X W := by
  funext i
  obtain ⟨a, b, rfl⟩ : ∃ (a : Fin A) (b : Fin B), i = ix2 a b := ⟨i 0, i 1, eq_ix2 i⟩
  exact Cert.LibColumnBlocks.hostDot_apply d hr hs hlc hrc hl0 hr1 X W a b none

end Cert.Gcn

end
-- ==== Proof.Spec.lean ====
/-
  Two whole-array functions over the extended reals that the graph network's dense steps compute.

  `matProd X W` (from the array-forms library beside this file) is the product of an [A,K] matrix with a [K,B] matrix.
  `rowDot X Y` is, per row of two [A,K] matrices, the sum over the K columns of the products of their entries, held as
  an [A,1] column: the score of a label edge is the dot product of its two endpoint embeddings.
-/
import proofs.«104224_j18820546691088_1_alg».proof.Proof.LibArrayForms

noncomputable section

namespace Cert.Gcn

open Idealize.ShloMosaic Idealize.ShloMosaic.ValueIdx

/-- Row by row, the sum over the columns of the products of two matrices' entries, as an [A,1] column. -/
def rowDot {A K : ℕ} (X Y : FVec Ideal ⟨2, ![A, K]⟩ .f32) : FVec Ideal ⟨2, ![A, 1]⟩ .f32 :=
  fun i => ∑ k : Fin K, X (ix2 (i 0) k) * Y (ix2 (i 0) k)

end Cert.Gcn

end
-- ==== Proof.LayerSpec.lean ====
/-
  The graph network as functions of whole arrays, over the extended reals.

  An edge list `ei` of shape [2,800000] gives each edge a source (row 0) and a target (row 1); a negative index counts
  from the end (50000 is added). The degree of a node is one plus the number of edges that target it, `dinv` its
  inverse square root; an edge's weight is `dinv(source) · dinv(target)`, a node's self weight `dinv²`. One layer
  multiplies the node features by a weight matrix, lets every edge carry its source's row, scaled by the edge weight,
  to its target (a sum per target), adds the node's own row scaled by its self weight, and adds the bias. Three such
  layers, the first two followed by a maximum with zero, give the node embeddings; a label edge's score is the dot
  product of its two endpoints' embeddings. The dense product is a parameter (`mm₁`, `mm₃`), so that one
  definition serves the program that multiplies in a kernel and the one that multiplies on the host.
-/
import proofs.«104224_j18820546691088_1_alg».proof.Proof.Gen.ReferenceIdeal
import proofs.«104224_j18820546691088_1_alg».proof.Proof.Spec

noncomputable section

namespace Cert.Gcn

open Cert.ReferenceIdeal Cert.ReferenceIdeal.Gen Idealize.ShloMosaic Idealize.ShloMosaic.TcCoe

/-- An array of 32-bit integers of shape `S`. -/
abbrev IV (S : Shape) := IVec S 32
/-- An array of extended reals of shape `S`. -/
abbrev FV (S : Shape) := FVec Ideal S .f32

/-- The edges' sources: row 0 of the edge list. -/
def srcOf (ei : IV S2x800000) : IV S800000 :=
  shapeCast _ (extractStridedSlice S1x800000 ![0, 0] ei slices_S2x800000_S1x800000_0_0) shapeCasts_S1x800000_S800000
/-- The edges' targets: row 1 of the edge list. -/
def dstOf (ei : IV S2x800000) : IV S800000 :=
  shapeCast _ (extractStridedSlice S1x800000 ![1, 0] ei slices_S2x800000_S1x800000_1_0) shapeCasts_S1x800000_S800000

/-- Node indices with the negative ones counted from the end, as a column of start indices. -/
def wrapE (v : IV S800000) : IV S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The inverse square root of each node's degree (one plus the number of edges that target it). -/
def dinvOf (d : IV S800000) : FV S50000 :=
  Host.rsqrt (F := Ideal) (addf (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))
    (broadcastInDim S50000 ![] bcast_S_S50000 (constant (F := Ideal) S_ .f32 0x3F800000#32)))

/-- An edge's weight: the product of its endpoints' inverse root degrees. -/
def normOf (s d : IV S800000) : FV S800000 :=
  mulf (Host.gather gather_S50000_S800000x1_S800000_n_0_n_n_0_1_1 (dinvOf d) (wrapE s))
    (Host.gather gather_S50000_S800000x1_S800000_n_0_n_n_0_1_1 (dinvOf d) (wrapE d))

/-- A node's self weight: the square of its inverse root degree. -/
def selfOf (d : IV S800000) : FV S50000 := mulf (dinvOf d) (dinvOf d)

/-- One aggregation step on [50000,128] features `h`: every edge carries its source row times the edge weight to its
    target (a sum per target node), every node adds its own row times its self weight, and the bias row is added. -/
def layer128 (h : FV S50000x128) (s d : IV S800000) (nrm : FV S800000) (slf : FV S50000) (b : FV S128) : FV S50000x128 :=
  addf (addf (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (mulf (Host.gather gather_S50000x128_S800000x1_S800000x128_1_0_n_n_0_1_1128 h (wrapE s))
        (broadcastInDim S800000x128 ![0, 1] bcast_S800000x1_S800000x128_0_1 (broadcastInDim S800000x1 ![0] bcast_S800000_S800000x1_0 nrm))))
    (mulf h (broadcastInDim S50000x128 ![0, 1] bcast_S50000x1_S50000x128_0_1 (broadcastInDim S50000x1 ![0] bcast_S50000_S50000x1_0 slf))))
    (broadcastInDim S50000x128 ![0, 1] bcast_S1x128_S50000x128_0_1 (broadcastInDim S1x128 ![1] bcast_S128_S1x128_1 b))

/-- One aggregation step on [50000,64] features `h`: every edge carries its source row times the edge weight to its
    target (a sum per target node), every node adds its own row times its self weight, and the bias row is added. -/
def layer64 (h : FV S50000x64) (s d : IV S800000) (nrm : FV S800000) (slf : FV S50000) (b : FV S64) : FV S50000x64 :=
  addf (addf (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 d)
      (mulf (Host.gather gather_S50000x64_S800000x1_S800000x64_1_0_n_n_0_1_164 h (wrapE s))
        (broadcastInDim S800000x64 ![0, 1] bcast_S800000x1_S800000x64_0_1 (broadcastInDim S800000x1 ![0] bcast_S800000_S800000x1_0 nrm))))
    (mulf h (broadcastInDim S50000x64 ![0, 1] bcast_S50000x1_S50000x64_0_1 (broadcastInDim S50000x1 ![0] bcast_S50000_S50000x1_0 slf))))
    (broadcastInDim S50000x64 ![0, 1] bcast_S1x64_S50000x64_0_1 (broadcastInDim S1x64 ![1] bcast_S64_S1x64_1 b))

/-- The maximum with zero, entry by entry. -/
def relu128 (z : FV S50000x128) : FV S50000x128 :=
  maximumf z (broadcastInDim S50000x128 ![] bcast_S_S50000x128 (constant (F := Ideal) S_ .f32 0x00000000#32))

/-- The node embeddings: three layers, the dense products `mm₁` ([50000,128] by [128,128]) and `mm₃` ([50000,128] by
    [128,64]) given. -/
def embed (mm₁ : FV S50000x128 → FV S128x128 → FV S50000x128) (mm₃ : FV S50000x128 → FV S128x64 → FV S50000x64)
    (x : FV S50000x128) (ei : IV S2x800000) (w₁ : FV S128x128) (b₁ : FV S128) (w₂ : FV S128x128) (b₂ : FV S128)
    (w₃ : FV S128x64) (b₃ : FV S64) : FV S50000x64 :=
  layer64 (mm₃ (relu128 (layer128 (mm₁ (relu128 (layer128 (mm₁ x w₁) (srcOf ei) (dstOf ei)
      (normOf (srcOf ei) (dstOf ei)) (selfOf (dstOf ei)) b₁)) w₂) (srcOf ei) (dstOf ei)
      (normOf (srcOf ei) (dstOf ei)) (selfOf (dstOf ei)) b₂)) w₃) (srcOf ei) (dstOf ei)
      (normOf (srcOf ei) (dstOf ei)) (selfOf (dstOf ei)) b₃

/-- Row `r` of the label edges (0: first endpoints, 1: second endpoints). -/
def lab0 (li : IV S2x100000) : IV S100000 :=
  shapeCast _ (extractStridedSlice S1x100000 ![0, 0] li slices_S2x100000_S1x100000_0_0) shapeCasts_S1x100000_S100000
def lab1 (li : IV S2x100000) : IV S100000 :=
  shapeCast _ (extractStridedSlice S1x100000 ![1, 0] li slices_S2x100000_S1x100000_1_0) shapeCasts_S1x100000_S100000

/-- The embeddings of one endpoint of every label edge: rows of `z` at the (wrapped) node indices. -/
def rows64 (z : FV S50000x64) (l : IV S100000) : FV S100000x64 :=
  Host.gather gather_S50000x64_S100000x1_S100000x64_1_0_n_n_0_1_164 z
    (broadcastInDim S100000x1 ![0] bcast_S100000_S100000x1_0
      (select (cmpi .slt l (broadcastInDim S100000 ![] bcast_S_S100000 (constantI S_ 32 0#32)))
        (addi l (broadcastInDim S100000 ![] bcast_S_S100000 (constantI S_ 32 50000#32))) l))

end Cert.Gcn

end
-- ==== Proof.LibFoldSegments.lean ====
/-
  Reading back a straight line of host operations a segment at a time: the method, and the one fact it needs beyond the library.

  The buffer contents after a line of host operations are a fold of the operations over the contents the line starts from.
  (1) The fold over two lists in a row is the fold over the second list of the fold over the first (the library's
  `StableHlo.after_append`), so a long line can be cut anywhere and each piece read over whatever contents it is entered with. (2) A called function that the printer has inlined
  keeps each of its values in a buffer through a pair of transports, into the buffer's own type and back to the value's type;
  for ANY typed reference the round trip is the identity, with no look-up of the buffer's type in the signature's tables.
  Together: cut the line at the inlined calls; read a plain piece directly against the values it is entered with; read an
  inlined call over the entering contents as they are, removing the round trips by (2) and the two transports at its
  boundary buffers by the plain fact that a transport along an equation between equal types is the identity, and only
  then compare. This matters when a call contains a reduction over an axis: there a direct comparison across the transports
  was found not to terminate within any recursion limit, while for calls made only of pointwise operations and broadcasts it
  does.
-/
import Idealize.ShloMosaic.Lib.StableHlo.Run

noncomputable section

namespace Cert.LibFoldSegments

open Idealize.ShloMosaic Idealize.ShloMosaic.StableHlo

variable {τ : Topo} {sig : RefSig} {Val : EltTy → Type}

/-- A value carried into the buffer of a typed reference and read back at the value's type is itself, for any reference. -/
theorem ofBuf_toBuf {T : BufTy} (x : TRef sig T) (v : T.Contents Val) : x.ofBuf (x.toBuf v) = v := by
  obtain ⟨r, h, h1, h2⟩ := x
  subst h
  rfl

end Cert.LibFoldSegments

end
-- ==== Proof.HostChain.lean ====
/-
  The idealized kernel program's host stretches, read as the graph network's functions.

  Between its four dense regions the program runs stretches of host operations. Each stretch's results are functions
  of the buffer contents `V` the stretch starts from, whatever they are: the first computes the edges' sources and
  targets, the edge weights and the self weights from the edge list; the second and third apply one aggregation layer
  and a maximum with zero to a region's product; the fourth applies the last aggregation layer and picks the rows of
  the label edges' endpoints; the last recasts the [100000,1] column of scores as a vector. A buffer a stretch does not
  write keeps its contents.
-/
import proofs.«104224_j18820546691088_1_alg».proof.Proof.Gen.KernelIdeal.Launch
import proofs.«104224_j18820546691088_1_alg».proof.Proof.LayerSpec
import proofs.«104224_j18820546691088_1_alg».proof.Proof.LibFoldSegments
import Idealize.ShloMosaic.Lib.StableHlo.Run

set_option maxRecDepth 16384

noncomputable section

namespace Cert.KernelIdeal.HostChain

open Cert.KernelIdeal Cert.KernelIdeal.Gen Cert.Gcn
open Idealize.ShloMosaic Idealize.ShloMosaic.TcCoe Idealize.SL.Sem Idealize.ShloMosaic.StableHlo

variable (V : Valuation τ sig (Elt Ideal))

/-! ## The first stretch: the graph's structure -/

/-- The first stretch leaves the edges' sources, targets, weights and the nodes' self weights, as functions of the
    edge list. -/
theorem first_stretch :
    StableHlo.after hostOps0 V (Proc.devRef .tc main_v1) = srcOf (V (Proc.devRef .tc main_arg1))
    ∧ StableHlo.after hostOps0 V (Proc.devRef .tc main_v3) = dstOf (V (Proc.devRef .tc main_arg1))
    ∧ StableHlo.after hostOps0 V (Proc.devRef .tc main_v25) = normOf (srcOf (V (Proc.devRef .tc main_arg1))) (dstOf (V (Proc.devRef .tc main_arg1)))
    ∧ StableHlo.after hostOps0 V (Proc.devRef .tc main_v26) = selfOf (dstOf (V (Proc.devRef .tc main_arg1))) := by
  refine ⟨?_, ?_, ?_, ?_⟩ <;>
    (dsimp only [hostOps0]
     after_results_simp
     rfl)

/-- The first stretch writes no argument array. -/
theorem first_args :
    StableHlo.after hostOps0 V (Proc.devRef .tc main_arg0) = V (Proc.devRef .tc main_arg0)
    ∧ StableHlo.after hostOps0 V (Proc.devRef .tc main_arg2) = V (Proc.devRef .tc main_arg2)
    ∧ StableHlo.after hostOps0 V (Proc.devRef .tc main_arg3) = V (Proc.devRef .tc main_arg3)
    ∧ StableHlo.after hostOps0 V (Proc.devRef .tc main_arg4) = V (Proc.devRef .tc main_arg4)
    ∧ StableHlo.after hostOps0 V (Proc.devRef .tc main_arg5) = V (Proc.devRef .tc main_arg5)
    ∧ StableHlo.after hostOps0 V (Proc.devRef .tc main_arg6) = V (Proc.devRef .tc main_arg6)
    ∧ StableHlo.after hostOps0 V (Proc.devRef .tc main_arg7) = V (Proc.devRef .tc main_arg7)
    ∧ StableHlo.after hostOps0 V (Proc.devRef .tc main_arg8) = V (Proc.devRef .tc main_arg8) := by
  refine ⟨?_, ?_, ?_, ?_, ?_, ?_, ?_, ?_⟩ <;>
    (dsimp only [hostOps0]
     after_results_simp)

/-! ## The second and third stretches: an aggregation layer and a maximum with zero -/

/-- From region 0's exit: one aggregation layer over region 0's product and the graph's structure. -/
theorem layer_stretch₁ :
    StableHlo.after hostOps1 V (Proc.devRef .tc main_v47)
      = layer128 (V (Proc.devRef .tc main_v27)) (V (Proc.devRef .tc main_v1)) (V (Proc.devRef .tc main_v3))
          (V (Proc.devRef .tc main_v25)) (V (Proc.devRef .tc main_v26)) (V (Proc.devRef .tc main_arg4)) := by
  dsimp only [hostOps1]
  after_results_simp
  rfl

/-- The maximum with zero that follows it. The called function keeps its values in buffers of their own; carrying a
    value into such a buffer and reading it back gives the value. -/
theorem relu_stretch₁ :
    StableHlo.after hostOps1_1 V (Proc.devRef .tc main_v48) = relu128 (V (Proc.devRef .tc main_v47)) := by
  dsimp only [hostOps1_1]
  after_results_simp
  simp only [Cert.LibFoldSegments.ofBuf_toBuf]
  generalize V (Proc.devRef .tc main_v47) = x
  rfl

/-- What the second stretch leaves alone. -/
theorem second_keeps :
    StableHlo.after hostOps1_1 (StableHlo.after hostOps1 V) (Proc.devRef .tc main_v1) = V (Proc.devRef .tc main_v1)
    ∧ StableHlo.after hostOps1_1 (StableHlo.after hostOps1 V) (Proc.devRef .tc main_v3) = V (Proc.devRef .tc main_v3)
    ∧ StableHlo.after hostOps1_1 (StableHlo.after hostOps1 V) (Proc.devRef .tc main_v25) = V (Proc.devRef .tc main_v25)
    ∧ StableHlo.after hostOps1_1 (StableHlo.after hostOps1 V) (Proc.devRef .tc main_v26) = V (Proc.devRef .tc main_v26)
    ∧ StableHlo.after hostOps1_1 (StableHlo.after hostOps1 V) (Proc.devRef .tc main_arg2) = V (Proc.devRef .tc main_arg2)
    ∧ StableHlo.after hostOps1_1 (StableHlo.after hostOps1 V) (Proc.devRef .tc main_arg5) = V (Proc.devRef .tc main_arg5)
    ∧ StableHlo.after hostOps1_1 (StableHlo.after hostOps1 V) (Proc.devRef .tc main_arg6) = V (Proc.devRef .tc main_arg6)
    ∧ StableHlo.after hostOps1_1 (StableHlo.after hostOps1 V) (Proc.devRef .tc main_arg7) = V (Proc.devRef .tc main_arg7)
    ∧ StableHlo.after hostOps1_1 (StableHlo.after hostOps1 V) (Proc.devRef .tc main_arg8) = V (Proc.devRef .tc main_arg8) := by
  refine ⟨?_, ?_, ?_, ?_, ?_, ?_, ?_, ?_, ?_⟩ <;>
    (dsimp only [hostOps1_1, hostOps1]
     after_results_simp)

/-- From region 1's exit: one aggregation layer over region 1's product. -/
theorem layer_stretch₂ :
    StableHlo.after hostOps2 V (Proc.devRef .tc main_v69)
      = layer128 (V (Proc.devRef .tc main_v49)) (V (Proc.devRef .tc main_v1)) (V (Proc.devRef .tc main_v3))
          (V (Proc.devRef .tc main_v25)) (V (Proc.devRef .tc main_v26)) (V (Proc.devRef .tc main_arg6)) := by
  dsimp only [hostOps2]
  after_results_simp
  rfl

/-- The maximum with zero that follows it. -/
theorem relu_stretch₂ :
    StableHlo.after hostOps2_1 V (Proc.devRef .tc main_v70) = relu128 (V (Proc.devRef .tc main_v69)) := by
  dsimp only [hostOps2_1]
  after_results_simp
  simp only [Cert.LibFoldSegments.ofBuf_toBuf]
  generalize V (Proc.devRef .tc main_v69) = x
  rfl

/-- What the third stretch leaves alone. -/
theorem third_keeps :
    StableHlo.after hostOps2_1 (StableHlo.after hostOps2 V) (Proc.devRef .tc main_v1) = V (Proc.devRef .tc main_v1)
    ∧ StableHlo.after hostOps2_1 (StableHlo.after hostOps2 V) (Proc.devRef .tc main_v3) = V (Proc.devRef .tc main_v3)
    ∧ StableHlo.after hostOps2_1 (StableHlo.after hostOps2 V) (Proc.devRef .tc main_v25) = V (Proc.devRef .tc main_v25)
    ∧ StableHlo.after hostOps2_1 (StableHlo.after hostOps2 V) (Proc.devRef .tc main_v26) = V (Proc.devRef .tc main_v26)
    ∧ StableHlo.after hostOps2_1 (StableHlo.after hostOps2 V) (Proc.devRef .tc main_arg2) = V (Proc.devRef .tc main_arg2)
    ∧ StableHlo.after hostOps2_1 (StableHlo.after hostOps2 V) (Proc.devRef .tc main_arg7) = V (Proc.devRef .tc main_arg7)
    ∧ StableHlo.after hostOps2_1 (StableHlo.after hostOps2 V) (Proc.devRef .tc main_arg8) = V (Proc.devRef .tc main_arg8) := by
  refine ⟨?_, ?_, ?_, ?_, ?_, ?_, ?_⟩ <;>
    (dsimp only [hostOps2_1, hostOps2]
     after_results_simp)

/-! ## The fourth stretch: the last layer, and the label edges' endpoint rows -/

/-- From region 2's exit: the rows of the embeddings at the label edges' first and second endpoints. -/
theorem fourth_stretch :
    StableHlo.after hostOps3 V (Proc.devRef .tc main_v102) = rows64 (layer64 (V (Proc.devRef .tc main_v71)) (V (Proc.devRef .tc main_v1)) (V (Proc.devRef .tc main_v3))
        (V (Proc.devRef .tc main_v25)) (V (Proc.devRef .tc main_v26)) (V (Proc.devRef .tc main_arg8))) (lab0 (V (Proc.devRef .tc main_arg2)))
    ∧ StableHlo.after hostOps3 V (Proc.devRef .tc main_v109) = rows64 (layer64 (V (Proc.devRef .tc main_v71)) (V (Proc.devRef .tc main_v1)) (V (Proc.devRef .tc main_v3))
        (V (Proc.devRef .tc main_v25)) (V (Proc.devRef .tc main_v26)) (V (Proc.devRef .tc main_arg8))) (lab1 (V (Proc.devRef .tc main_arg2))) := by
  refine ⟨?_, ?_⟩ <;>
    (dsimp only [hostOps3]
     after_results_simp
     rfl)

/-! ## The last stretch: the column of scores as a vector -/

theorem last_stretch :
    StableHlo.after hostOps4 V (Proc.devRef .tc main_v111) = shapeCast S100000 (V (Proc.devRef .tc main_v110)) shapeCasts_S100000x1_S100000 := by
  dsimp only [hostOps4]
  after_results_simp
  rfl

end Cert.KernelIdeal.HostChain

end
-- ==== Proof.RegionProduct0.lean ====
/-
  The first dense layer of the network as one whole-array function.

  The region multiplies a [50000,128] matrix by a [128,128] weight matrix, 2000 rows per grid point: point `t` holds rows
  `2000 t … 2000 t + 1999` of the left operand and the whole weight matrix, and writes the [2000,128] product of the two
  to rows `2000 t … 2000 t + 1999` of the result. Rounding the operands to the narrower float format is the identity
  over the extended reals, and the accumulator starts at zero, so entry `(p, q)` of a block is the sum over `k` of
  `x (p, k) · w (k, q)`. Row `r` of the result is written by point `r / 2000` and the 25 blocks fill the 50000 rows, so
  after the region the result array is the matrix product of the two operand arrays as the region found them.
-/
import proofs.«104224_j18820546691088_1_alg».proof.Proof.Gen.KernelIdeal.Frame
import proofs.«104224_j18820546691088_1_alg».proof.Proof.Spec

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem zeroOffsets0 : (![0, 0] : Fin 2 → Nat) = fun _ => 0 := funext fun a => by fin_cases a <;> rfl

/-- In the left operand's index the row is the result's row … -/
theorem lhsRow0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and in the right operand's index the column is the result's column. -/
theorem rhsCol0 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry `(p, q)` of the block the body stores: the sum over `k` of `x (p, k) · w (k, q)`. -/
theorem blockProduct0 (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  exact Cert.LibColumnBlocks.matmul_zero_apply dot_S2000x128_S128x128_S2000x128_1_0_0_1_n_n rfl rfl rfl rfl
    lhsRow0 rhsCol0 _ _ p q none

variable (V : (c : Dev nD) → (b : Ref sig .tc) → Buf (Elt Ideal) ((c : Thread nD τ).loc b))

/-- Entry `y` of the stored block as an entry of the product of two whole arrays `X`, `W`, when the loaded row block
    holds `X`'s row `r` at its row `y 0` and the loaded weights are `W`: the entry at `(r, y 1)`. -/
theorem blockEntry0 (x : Vec Ideal S2000x128 .f32) (w : Vec Ideal S128x128 .f32)
    (X : FVec Ideal ⟨2, ![50000, 128]⟩ .f32) (W : FVec Ideal ⟨2, ![128, 128]⟩ .f32) (y : S2000x128.Idx) (i : S50000x128.Idx)
    (hx : ∀ k : Fin 128, x (ix2 (y 0) k) = X (ix2 (i 0) k)) (hw : ∀ (k : Fin 128) (q : Fin 128), w (ix2 k q) = W (ix2 k q))
    (hcol : i 1 = y 1) :
    k0_pay1 (F := Ideal) x w y = Cert.Gcn.matProd X W i := by
  obtain ⟨p, q, rfl⟩ : ∃ (p : Fin 2000) (q : Fin 128), y = ix2 p q := ⟨y 0, y 1, eq_ix2 y⟩
  refine (blockProduct0 x w p q).trans ?_
  show _ = ∑ k : Fin 128, X (ix2 (i 0) k) * W (ix2 k (i 1))
  refine Finset.sum_congr rfl fun k _ => ?_
  rw [hcol]
  exact congrArg₂ (· * ·) (hx k) (hw k q)

/-- The printed index maps over the 25 grid points: the left operand's and the result's blocks are row block `t`, column
    block 0; the weights' block is the whole matrix. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the region finds them. -/
theorem flushedProduct0 (c : Dev nD) (t : Fin cfg0.N) :
    (dat0 (F := Ideal) V c).flushed 2 t
      = ((cfg0.win 2).blk t).view.read (Elt Ideal) (Cert.Gcn.matProd (A := 50000) (K := 128) (B := 128) (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S2000x128) zeroOffsets0, View.ld_unit_zero (S := S128x128) zeroOffsets0]
  obtain ⟨e00, e01, e10, e11, e20, e21⟩ := blockIndices0 t
  funext j
  show k0_pay1 (F := Ideal) (iblk0 V c 0 t) (iblk0 V c 1 t) j = Cert.Gcn.matProd (A := 50000) (K := 128) (B := 128) (V c main_arg0) (V c main_arg3) (((cfg0.win 2).blk t).view.emb j)
  refine blockEntry0 _ _ _ _ j _ (fun k => ?_) (fun k q => ?_) ?_
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · refine Fin.ext ?_
    show win0_2.index t (1 : Fin 2) * 128 + 1 * (j 1).val = (j 1).val; omega

/-- An index of the result array is in point `t`'s block iff each coordinate is in the block's range on its axis. -/
theorem memBlock0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Row `r` of the result is in the block of point `r / 2000`, and every point writes its block back. -/
theorem covered0 (i : S50000x128.Idx) :
    ∃ t : Fin cfg0.N, (cfg0.win 2).flush t = true ∧ i ∈ ((cfg0.win 2).blk t).view.set := by
  have hN : grid0.N = 25 := N_0
  have hi0 : (i 0).val < 50000 := (i 0).isLt
  have hi1 : (i 1).val < 128 := (i 1).isLt
  refine ⟨⟨(i 0).val / 2000, by show (i 0).val / 2000 < grid0.N; omega⟩, flush0_2 _, ?_⟩
  rw [memBlock0]
  obtain ⟨-, -, -, -, e20, e21⟩ := blockIndices0 ⟨(i 0).val / 2000, by show (i 0).val / 2000 < grid0.N; omega⟩
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e21]; omega

/-- After the region the result array is the product of the two operand arrays as the region found them. -/
theorem arr0 (c : Dev nD) :
    ((dat0 (F := Ideal) V c).arrAt 2 cfg0.N : S50000x128.Idx → EReal) = Cert.Gcn.matProd (V c main_arg0) (V c main_arg3) :=
  (dat0 (F := Ideal) V c).arrAt_eq_of_cover 2 (Cert.Gcn.matProd (A := 50000) (K := 128) (B := 128) (V c main_arg0) (V c main_arg3))
    (fun t _ => flushedProduct0 V c t) covered0

end Cert.KernelIdeal.RegionValue

end
-- ==== Proof.RegionProduct1.lean ====
/-
  The second dense layer of the network as one whole-array function.

  The region multiplies a [50000,128] matrix by a [128,128] weight matrix, 2000 rows per grid point: point `t` holds rows
  `2000 t … 2000 t + 1999` of the left operand and the whole weight matrix, and writes the [2000,128] product of the two
  to rows `2000 t … 2000 t + 1999` of the result. A cast of the left block to its own shape changes nothing, rounding
  the operands to the narrower float format is the identity over the extended reals, and the accumulator starts at
  zero, so entry `(p, q)` of a block is the sum over `k` of `x (p, k) · w (k, q)`. Row `r` of the result is written by
  point `r / 2000` and the 25 blocks fill the 50000 rows, so after the region the result array is the matrix product of
  the two operand arrays as the region found them.
-/
import proofs.«104224_j18820546691088_1_alg».proof.Proof.Gen.KernelIdeal.Frame
import proofs.«104224_j18820546691088_1_alg».proof.Proof.Spec

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem zeroOffsets1 : (![0, 0] : Fin 2 → Nat) = fun _ => 0 := funext fun a => by fin_cases a <;> rfl

/-- In the left operand's index the row is the result's row … -/
theorem lhsRow1 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and in the right operand's index the column is the result's column. -/
theorem rhsCol1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry `(p, q)` of the block the body stores: the sum over `k` of `x (p, k) · w (k, q)`. -/
theorem blockProduct1 (x : Vec Ideal S2000x128 .f32) (w : Vec Ideal S128x128 .f32) (p : Fin 2000) (q : Fin 128) :
    k1_pay1 (F := Ideal) x w (ix2 p q) = ∑ k : Fin 128, x (ix2 p k) * w (ix2 k q) := by
  unfold k1_pay1
  refine (Cert.LibColumnBlocks.matmul_zero_apply dot_S2000x128_S128x128_S2000x128_1_0_0_1_n_n rfl rfl rfl rfl
    lhsRow1 rhsCol1 _ _ p q none).trans ?_
  rw [shapeCast_self]
  rfl

variable (V : (c : Dev nD) → (b : Ref sig .tc) → Buf (Elt Ideal) ((c : Thread nD τ).loc b))

/-- Entry `y` of the stored block as an entry of the product of two whole arrays `X`, `W`, when the loaded row block
    holds `X`'s row `r` at its row `y 0` and the loaded weights are `W`: the entry at `(r, y 1)`. -/
theorem blockEntry1 (x : Vec Ideal S2000x128 .f32) (w : Vec Ideal S128x128 .f32)
    (X : FVec Ideal ⟨2, ![50000, 128]⟩ .f32) (W : FVec Ideal ⟨2, ![128, 128]⟩ .f32) (y : S2000x128.Idx) (i : S50000x128.Idx)
    (hx : ∀ k : Fin 128, x (ix2 (y 0) k) = X (ix2 (i 0) k)) (hw : ∀ (k : Fin 128) (q : Fin 128), w (ix2 k q) = W (ix2 k q))
    (hcol : i 1 = y 1) :
    k1_pay1 (F := Ideal) x w y = Cert.Gcn.matProd X W i := by
  obtain ⟨p, q, rfl⟩ : ∃ (p : Fin 2000) (q : Fin 128), y = ix2 p q := ⟨y 0, y 1, eq_ix2 y⟩
  refine (blockProduct1 x w p q).trans ?_
  show _ = ∑ k : Fin 128, X (ix2 (i 0) k) * W (ix2 k (i 1))
  refine Finset.sum_congr rfl fun k _ => ?_
  rw [hcol]
  exact congrArg₂ (· * ·) (hx k) (hw k q)

/-- The printed index maps over the 25 grid points: the left operand's and the result's blocks are row block `t`, column
    block 0; the weights' block is the whole matrix. -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two operand arrays as the region finds them. -/
theorem flushedProduct1 (c : Dev nD) (t : Fin cfg1.N) :
    (dat1 (F := Ideal) V c).flushed 2 t
      = ((cfg1.win 2).blk t).view.read (Elt Ideal) (Cert.Gcn.matProd (A := 50000) (K := 128) (B := 128) (V c main_v48) (V c main_arg5)) := by
  show (cfg1.win 2).cut (grid1.coords t) ((dat1 V c).after 2 t) = _
  rw [after1_2]
  unfold out1_2
  rw [View.canon_unit_zero zeroOffsets1]
  simp only [View.ld_unit_zero (S := S2000x128) zeroOffsets1, View.ld_unit_zero (S := S128x128) zeroOffsets1]
  obtain ⟨e00, e01, e10, e11, e20, e21⟩ := blockIndices1 t
  funext j
  show k1_pay1 (F := Ideal) (iblk1 V c 0 t) (iblk1 V c 1 t) j = Cert.Gcn.matProd (A := 50000) (K := 128) (B := 128) (V c main_v48) (V c main_arg5) (((cfg1.win 2).blk t).view.emb j)
  refine blockEntry1 _ _ _ _ j _ (fun k => ?_) (fun k q => ?_) ?_
  · show V c main_v48 (((cfg1.win 0).blk t).view.emb (ix2 (j 0) k)) = V c main_v48 (ix2 ((((cfg1.win 2).blk t).view.emb j) 0) k)
    refine congrArg (V c main_v48) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  · show V c main_arg5 (((cfg1.win 1).blk t).view.emb (ix2 k q)) = V c main_arg5 (ix2 k q)
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · refine Fin.ext ?_
    show win1_2.index t (1 : Fin 2) * 128 + 1 * (j 1).val = (j 1).val; omega

/-- An index of the result array is in point `t`'s block iff each coordinate is in the block's range on its axis. -/
theorem memBlock1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Row `r` of the result is in the block of point `r / 2000`, and every point writes its block back. -/
theorem covered1 (i : S50000x128.Idx) :
    ∃ t : Fin cfg1.N, (cfg1.win 2).flush t = true ∧ i ∈ ((cfg1.win 2).blk t).view.set := by
  have hN : grid1.N = 25 := N_1
  have hi0 : (i 0).val < 50000 := (i 0).isLt
  have hi1 : (i 1).val < 128 := (i 1).isLt
  refine ⟨⟨(i 0).val / 2000, by show (i 0).val / 2000 < grid1.N; omega⟩, flush1_2 _, ?_⟩
  rw [memBlock1]
  obtain ⟨-, -, -, -, e20, e21⟩ := blockIndices1 ⟨(i 0).val / 2000, by show (i 0).val / 2000 < grid1.N; omega⟩
  intro a
  match a with
  | ⟨0, _⟩ =>
    show win1_2.index _ (0 : Fin 2) * 2000 ≤ (i 0).val ∧ (i 0).val < win1_2.index _ (0 : Fin 2) * 2000 + 2000
    rw [e20]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e21]; omega

/-- After the region the result array is the product of the two operand arrays as the region found them. -/
theorem arr1 (c : Dev nD) :
    ((dat1 (F := Ideal) V c).arrAt 2 cfg1.N : S50000x128.Idx → EReal) = Cert.Gcn.matProd (V c main_v48) (V c main_arg5) :=
  (dat1 (F := Ideal) V c).arrAt_eq_of_cover 2 (Cert.Gcn.matProd (A := 50000) (K := 128) (B := 128) (V c main_v48) (V c main_arg5))
    (fun t _ => flushedProduct1 V c t) covered1

end Cert.KernelIdeal.RegionValue

end
-- ==== Proof.RegionProduct2.lean ====
/-
  The third dense layer of the network as one whole-array function.

  The region multiplies a [50000,128] matrix by a [128,64] weight matrix, 2000 rows per grid point: point `t` holds rows
  `2000 t … 2000 t + 1999` of the left operand and the whole weight matrix, and writes the [2000,64] product of the two
  to rows `2000 t … 2000 t + 1999` of the result. A cast of the left block to its own shape changes nothing, rounding
  the operands to the narrower float format is the identity over the extended reals, and the accumulator starts at
  zero, so entry `(p, q)` of a block is the sum over `k` of `x (p, k) · w (k, q)`. Row `r` of the result is written by
  point `r / 2000` and the 25 blocks fill the 50000 rows, so after the region the result array is the matrix product of
  the two operand arrays as the region found them.
-/
import proofs.«104224_j18820546691088_1_alg».proof.Proof.Gen.KernelIdeal.Frame
import proofs.«104224_j18820546691088_1_alg».proof.Proof.Spec

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem zeroOffsets2 : (![0, 0] : Fin 2 → Nat) = fun _ => 0 := funext fun a => by fin_cases a <;> rfl

/-- In the left operand's index the row is the result's row … -/
theorem lhsRow2 (j : S2000x64.Idx) (k : dot_S2000x128_S128x64_S2000x64_1_0_0_1_n_n.contr.Idx) :
    (dot_S2000x128_S128x64_S2000x64_1_0_0_1_n_n.lhsIdx j k 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- … and in the right operand's index the column is the result's column. -/
theorem rhsCol2 (j : S2000x64.Idx) (k : dot_S2000x128_S128x64_S2000x64_1_0_0_1_n_n.contr.Idx) :
    (dot_S2000x128_S128x64_S2000x64_1_0_0_1_n_n.rhsIdx j k 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- Entry `(p, q)` of the block the body stores: the sum over `k` of `x (p, k) · w (k, q)`. -/
theorem blockProduct2 (x : Vec Ideal S2000x128 .f32) (w : Vec Ideal S128x64 .f32) (p : Fin 2000) (q : Fin 64) :
    k2_pay1 (F := Ideal) x w (ix2 p q) = ∑ k : Fin 128, x (ix2 p k) * w (ix2 k q) := by
  unfold k2_pay1
  refine (Cert.LibColumnBlocks.matmul_zero_apply dot_S2000x128_S128x64_S2000x64_1_0_0_1_n_n rfl rfl rfl rfl
    lhsRow2 rhsCol2 _ _ p q none).trans ?_
  rw [shapeCast_self]
  rfl

variable (V : (c : Dev nD) → (b : Ref sig .tc) → Buf (Elt Ideal) ((c : Thread nD τ).loc b))

/-- Entry `y` of the stored block as an entry of the product of two whole arrays `X`, `W`, when the loaded row block
    holds `X`'s row `r` at its row `y 0` and the loaded weights are `W`: the entry at `(r, y 1)`. -/
theorem blockEntry2 (x : Vec Ideal S2000x128 .f32) (w : Vec Ideal S128x64 .f32)
    (X : FVec Ideal ⟨2, ![50000, 128]⟩ .f32) (W : FVec Ideal ⟨2, ![128, 64]⟩ .f32) (y : S2000x64.Idx) (i : S50000x64.Idx)
    (hx : ∀ k : Fin 128, x (ix2 (y 0) k) = X (ix2 (i 0) k)) (hw : ∀ (k : Fin 128) (q : Fin 64), w (ix2 k q) = W (ix2 k q))
    (hcol : i 1 = y 1) :
    k2_pay1 (F := Ideal) x w y = Cert.Gcn.matProd X W i := by
  obtain ⟨p, q, rfl⟩ : ∃ (p : Fin 2000) (q : Fin 64), y = ix2 p q := ⟨y 0, y 1, eq_ix2 y⟩
  refine (blockProduct2 x w p q).trans ?_
  show _ = ∑ k : Fin 128, X (ix2 (i 0) k) * W (ix2 k (i 1))
  refine Finset.sum_congr rfl fun k _ => ?_
  rw [hcol]
  exact congrArg₂ (· * ·) (hx k) (hw k q)

/-- The printed index maps over the 25 grid points: the left operand's and the result's blocks are row block `t`, column
    block 0; the weights' block is the whole matrix. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two operand arrays as the region finds them. -/
theorem flushedProduct2 (c : Dev nD) (t : Fin cfg2.N) :
    (dat2 (F := Ideal) V c).flushed 2 t
      = ((cfg2.win 2).blk t).view.read (Elt Ideal) (Cert.Gcn.matProd (A := 50000) (K := 128) (B := 64) (V c main_v70) (V c main_arg7)) := by
  show (cfg2.win 2).cut (grid2.coords t) ((dat2 V c).after 2 t) = _
  rw [after2_2]
  unfold out2_2
  rw [View.canon_unit_zero zeroOffsets2]
  simp only [View.ld_unit_zero (S := S2000x128) zeroOffsets2, View.ld_unit_zero (S := S128x64) zeroOffsets2]
  obtain ⟨e00, e01, e10, e11, e20, e21⟩ := blockIndices2 t
  funext j
  show k2_pay1 (F := Ideal) (iblk2 V c 0 t) (iblk2 V c 1 t) j = Cert.Gcn.matProd (A := 50000) (K := 128) (B := 64) (V c main_v70) (V c main_arg7) (((cfg2.win 2).blk t).view.emb j)
  refine blockEntry2 _ _ _ _ j _ (fun k => ?_) (fun k q => ?_) ?_
  · show V c main_v70 (((cfg2.win 0).blk t).view.emb (ix2 (j 0) k)) = V c main_v70 (ix2 ((((cfg2.win 2).blk t).view.emb j) 0) k)
    refine congrArg (V c main_v70) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg7 (((cfg2.win 1).blk t).view.emb (ix2 k q)) = V c main_arg7 (ix2 k q)
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  · refine Fin.ext ?_
    show win2_2.index t (1 : Fin 2) * 64 + 1 * (j 1).val = (j 1).val; omega

/-- An index of the result array is in point `t`'s block iff each coordinate is in the block's range on its axis. -/
theorem memBlock2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v71).slice (win2_2.rect t)).set ↔ _
  rw [View.set_slice_whole, Rect.mem_set_unit]
  exact Iff.rfl

/-- Row `r` of the result is in the block of point `r / 2000`, and every point writes its block back. -/
theorem covered2 (i : S50000x64.Idx) :
    ∃ t : Fin cfg2.N, (cfg2.win 2).flush t = true ∧ i ∈ ((cfg2.win 2).blk t).view.set := by
  have hN : grid2.N = 25 := N_2
  have hi0 : (i 0).val < 50000 := (i 0).isLt
  have hi1 : (i 1).val < 64 := (i 1).isLt
  refine ⟨⟨(i 0).val / 2000, by show (i 0).val / 2000 < grid2.N; omega⟩, flush2_2 _, ?_⟩
  rw [memBlock2]
  obtain ⟨-, -, -, -, e20, e21⟩ := blockIndices2 ⟨(i 0).val / 2000, by show (i 0).val / 2000 < grid2.N; omega⟩
  intro a
  match a with
  | ⟨0, _⟩ =>
    show win2_2.index _ (0 : Fin 2) * 2000 ≤ (i 0).val ∧ (i 0).val < win2_2.index _ (0 : Fin 2) * 2000 + 2000
    rw [e20]; show (i 0).val / 2000 * 2000 ≤ (i 0).val ∧ (i 0).val < (i 0).val / 2000 * 2000 + 2000; omega
  | ⟨1, _⟩ =>
    show win2_2.index _ (1 : Fin 2) * 64 ≤ (i 1).val ∧ (i 1).val < win2_2.index _ (1 : Fin 2) * 64 + 64
    rw [e21]; omega

/-- After the region the result array is the product of the two operand arrays as the region found them. -/
theorem arr2 (c : Dev nD) :
    ((dat2 (F := Ideal) V c).arrAt 2 cfg2.N : S50000x64.Idx → EReal) = Cert.Gcn.matProd (V c main_v70) (V c main_arg7) :=
  (dat2 (F := Ideal) V c).arrAt_eq_of_cover 2 (Cert.Gcn.matProd (A := 50000) (K := 128) (B := 64) (V c main_v70) (V c main_arg7))
    (fun t _ => flushedProduct2 V c t) covered2

end Cert.KernelIdeal.RegionValue

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.RegionScores.lean ====
/-
  The decode region's result, as one function of the two arrays it reads.

  The region runs over ten grid points. Point t loads rows 10000 t … 10000 t + 9999 of two [100000, 64] arrays,
  multiplies them entry by entry, sums each row over its 64 columns, and writes the 10000 sums back as rows
  10000 t … 10000 t + 9999 of a [100000, 1] column. The ten row ranges are disjoint and fill the column, so after
  the region row r of the column holds the dot product of row r of the first array with row r of the second.
-/
import proofs.«104224_j18820546691088_1_alg».proof.Proof.Gen.KernelIdeal.Frame
import proofs.«104224_j18820546691088_1_alg».proof.Proof.Spec
import proofs.«104224_j18820546691088_1_alg».proof.Proof.LibRowOps

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's loads and its store start at row 0 and column 0 of their staging buffers. -/
theorem scores_zero_offsets : (![0, 0] : Fin 2 → Nat) = fun _ => 0 := funext fun a => by fin_cases a <;> rfl

/-- What the body computes from two [10000, 64] blocks, at row p of its [10000, 1] result: the sum over the 64
    columns k of the product of the two blocks' entries at (p, k). -/
theorem scores_payload_apply (x0 x1 : FVec Ideal S10000x64 .f32) (p : Fin 10000) (z : Fin 1) :
    k3_pay1 (F := Ideal) x0 x1 (ix2 p z) = ∑ k : Fin 64, x0 (ix2 p k) * x1 (ix2 p k) := by
  unfold k3_pay1
  refine (Cert.LibRowOps.cast_a_a1 _ _ p z).trans ?_
  refine (Cert.LibRowOps.sum_last2 _ _ _ _ p).trans ?_
  refine Finset.sum_congr rfl fun k _ => ?_
  rw [mulf_apply, shapeCast_self, shapeCast_self]

/-- The three index maps send grid point t to block (t, 0). -/
theorem scores_block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Row p, column k of the first input's block at point t is row 10000 t + p, column k of the first array. -/
theorem scores_block0_apply (c : Dev nD) (t : Fin cfg3.N) (p : Fin 10000) (k : Fin 64) (r : Fin 100000)
    (hr : r.val = t.val * 10000 + p.val) :
    (iblk3 V c 0 t : Vec Ideal S10000x64 .f32) (ix2 p k) = (V c main_v102 : S100000x64.Idx → Elt Ideal .f32) (ix2 r k) := by
  obtain ⟨e0, e1, -, -, -, -⟩ := scores_block_index t
  unfold iblk3
  rw [View.read_apply]
  show V c main_v102 _ = V c main_v102 _
  refine congrArg (V c main_v102) ?_
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- Row p, column k of the second input's block at point t is row 10000 t + p, column k of the second array. -/
theorem scores_block1_apply (c : Dev nD) (t : Fin cfg3.N) (p : Fin 10000) (k : Fin 64) (r : Fin 100000)
    (hr : r.val = t.val * 10000 + p.val) :
    (iblk3 V c 1 t : Vec Ideal S10000x64 .f32) (ix2 p k) = (V c main_v109 : S100000x64.Idx → Elt Ideal .f32) (ix2 r k) := by
  obtain ⟨-, -, e2, e3, -, -⟩ := scores_block_index t
  unfold iblk3
  rw [View.read_apply]
  show V c main_v109 _ = V c main_v109 _
  refine congrArg (V c main_v109) ?_
  funext a
  apply Fin.ext
  match a with
  | ⟨0, _⟩ => show win3_1.index t (0 : Fin 2) * 10000 + 1 * p.val = r.val; rw [e2, hr]; omega
  | ⟨1, _⟩ => show win3_1.index t (1 : Fin 2) * 64 + 1 * k.val = k.val; rw [e3]; omega

/-- What point t writes back is block t of the row-by-row dot products of the two arrays: row p of the body's
    result is the sum over the columns of the products of the two input blocks' rows p, which are rows
    10000 t + p of the two arrays, and row p of block t of the result column is its row 10000 t + p. -/
theorem scores_flushed (c : Dev nD) (t : Fin cfg3.N) :
    (dat3 (F := Ideal) V c).flushed 2 t
      = ((cfg3.win 2).blk t).view.read (Elt Ideal) (Cert.Gcn.rowDot (V c main_v102) (V c main_v109)) := by
  show (cfg3.win 2).cut (grid3.coords t) ((dat3 (F := Ideal) V c).after 2 t) = _
  rw [after3_2]
  unfold out3_2
  rw [View.canon_unit_zero scores_zero_offsets]
  simp only [View.ld_unit_zero (S := S10000x64) scores_zero_offsets]
  obtain ⟨-, -, -, -, e4, e5⟩ := scores_block_index t
  funext j
  obtain ⟨p, z, rfl⟩ : ∃ (p : Fin 10000) (z : Fin 1), j = ix2 p z := ⟨j 0, j 1, eq_ix2 j⟩
  show k3_pay1 (F := Ideal) (iblk3 V c 0 t) (iblk3 V c 1 t) (ix2 p z)
    = Cert.Gcn.rowDot (V c main_v102) (V c main_v109) (((cfg3.win 2).blk t).view.emb (ix2 p z))
  refine (scores_payload_apply _ _ p z).trans ?_
  have hr : ((((cfg3.win 2).blk t).view.emb (ix2 p z)) 0 : Fin 100000).val = t.val * 10000 + p.val := by
    show win3_2.index t (0 : Fin 2) * 10000 + 1 * p.val = _
    rw [e4]; omega
  refine Finset.sum_congr rfl fun k _ => ?_
  exact congrArg₂ (· * ·) (scores_block0_apply V c t p k _ hr) (scores_block1_apply V c t p k _ hr)

/-- An index of the result column is in point t's block iff each coordinate is in the block's range on its axis. -/
theorem scores_mem_block (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v110).slice (win3_2.rect t)).set ↔ _
  rw [View.set_slice_whole, Rect.mem_set_unit]
  exact Iff.rfl

/-- Every row of the result column is written: row r by point r / 10000. -/
theorem scores_cover (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  have hN : grid3.N = 10 := N_3
  let t : Fin cfg3.N := ⟨(i 0).val / 10000, by show (i 0).val / 10000 < grid3.N; rw [hN]; omega⟩
  obtain ⟨-, -, -, -, e4, e5⟩ := scores_block_index t
  have e4' : win3_2.index t (0 : Fin 2) = (i 0).val / 10000 := e4
  refine ⟨t, flush3_2 t, ?_⟩
  rw [scores_mem_block]
  intro a
  match a with
  | ⟨0, _⟩ => show win3_2.index t (0 : Fin 2) * 10000 ≤ (i 0).val ∧ (i 0).val < win3_2.index t (0 : Fin 2) * 10000 + 10000; rw [e4']; omega
  | ⟨1, _⟩ => show win3_2.index t (1 : Fin 2) * 1 ≤ (i 1).val ∧ (i 1).val < win3_2.index t (1 : Fin 2) * 1 + 1; rw [e5]; omega

/-- After the region the result column holds, row by row, the dot product of the two arrays' rows. -/
theorem arr3 (c : Dev nD) :
    ((dat3 (F := Ideal) V c).arrAt 2 cfg3.N : S100000x1.Idx → EReal) = Cert.Gcn.rowDot (V c main_v102) (V c main_v109) :=
  (dat3 (F := Ideal) V c).arrAt_eq_of_cover 2 (Cert.Gcn.rowDot (V c main_v102) (V c main_v109))
    (fun t _ => scores_flushed V c t) scores_cover

end Cert.KernelIdeal.RegionValue

end
-- ==== Proof.KernelValue.lean ====
/-
  The idealized kernel program's result as the graph network's function of its arguments.

  The buffer contents at the program's boundaries are followed from the launch to the return: the first stretch gives
  the graph's structure; each dense region gives the product of its two arrays; each later stretch applies a layer to
  the product before it; the decode region gives the label edges' scores as a column, which the last stretch recasts
  as a vector. Buffers computed early (the edges' sources and targets, the weights) and the argument arrays are carried
  unchanged across the regions and stretches that do not write them.
-/
import proofs.«104224_j18820546691088_1_alg».proof.Proof.Gen.KernelIdeal.Frame
import proofs.«104224_j18820546691088_1_alg».proof.Proof.HostChain
import proofs.«104224_j18820546691088_1_alg».proof.Proof.RegionProduct0
import proofs.«104224_j18820546691088_1_alg».proof.Proof.RegionProduct1
import proofs.«104224_j18820546691088_1_alg».proof.Proof.RegionProduct2
import proofs.«104224_j18820546691088_1_alg».proof.Proof.RegionScores

set_option maxRecDepth 16384

noncomputable section

namespace Cert.KernelIdeal.KernelValue

open Cert.KernelIdeal Cert.KernelIdeal.Gen Cert.Gcn Cert.KernelIdeal.HostChain
open Idealize.ShloMosaic Idealize.ShloMosaic.TcCoe Idealize.SL.Sem

variable (m : (ℓ : Loc nD τ sig) → Buf (Elt Ideal) ℓ) (ρ : Dev nD → PrngReg) (c : Dev nD)

/-- The edges' sources, targets, weights and the self weights, from the launch memory's edge list. -/
abbrev eS : IV S800000 := srcOf (m ((c : Thread nD τ).loc main_arg1))
abbrev eD : IV S800000 := dstOf (m ((c : Thread nD τ).loc main_arg1))
abbrev eN : FV S800000 := normOf (eS m c) (eD m c)
abbrev eF : FV S50000 := selfOf (eD m c)
/-- The three products and the layers' outputs between them. -/
abbrev h1 : FV S50000x128 := matProd (A := 50000) (K := 128) (B := 128) (m ((c : Thread nD τ).loc main_arg0)) (m ((c : Thread nD τ).loc main_arg3))
abbrev z1 : FV S50000x128 := relu128 (layer128 (h1 m c) (eS m c) (eD m c) (eN m c) (eF m c) (m ((c : Thread nD τ).loc main_arg4)))
abbrev h2 : FV S50000x128 := matProd (A := 50000) (K := 128) (B := 128) (z1 m c) (m ((c : Thread nD τ).loc main_arg5))
abbrev z2 : FV S50000x128 := relu128 (layer128 (h2 m c) (eS m c) (eD m c) (eN m c) (eF m c) (m ((c : Thread nD τ).loc main_arg6)))
abbrev h3 : FV S50000x64 := matProd (A := 50000) (K := 128) (B := 64) (z2 m c) (m ((c : Thread nD τ).loc main_arg7))
abbrev z3 : FV S50000x64 := layer64 (h3 m c) (eS m c) (eD m c) (eN m c) (eF m c) (m ((c : Thread nD τ).loc main_arg8))

/-- The last layer's output is the network's embeddings, the dense products the plain matrix product. -/
theorem z3_eq : z3 m c = embed (matProd (A := 50000) (K := 128) (B := 128)) (matProd (A := 50000) (K := 128) (B := 64))
    (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

/-! ## The stretches' results at the program's boundaries -/

theorem first_stretch' :
    W1 m ρ c (Proc.devRef .tc main_v1) = eS m c ∧ W1 m ρ c (Proc.devRef .tc main_v3) = eD m c
    ∧ W1 m ρ c (Proc.devRef .tc main_v25) = eN m c ∧ W1 m ρ c (Proc.devRef .tc main_v26) = eF m c :=
  first_stretch (W0 m ρ c)

theorem first_args' :
    W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8) :=
  first_args (W0 m ρ c)

theorem second_stretch' :
    W4 m ρ c (Proc.devRef .tc main_v48) = relu128 (layer128 (W2 m ρ c (Proc.devRef .tc main_v27)) (W2 m ρ c (Proc.devRef .tc main_v1)) (W2 m ρ c (Proc.devRef .tc main_v3))
      (W2 m ρ c (Proc.devRef .tc main_v25)) (W2 m ρ c (Proc.devRef .tc main_v26)) (W2 m ρ c (Proc.devRef .tc main_arg4))) :=
  (relu_stretch₁ (W3 m ρ c)).trans (congrArg relu128 (layer_stretch₁ (W2 m ρ c)))

theorem second_keeps' :
    W4 m ρ c (Proc.devRef .tc main_v1) = W2 m ρ c (Proc.devRef .tc main_v1)
    ∧ W4 m ρ c (Proc.devRef .tc main_v3) = W2 m ρ c (Proc.devRef .tc main_v3)
    ∧ W4 m ρ c (Proc.devRef .tc main_v25) = W2 m ρ c (Proc.devRef .tc main_v25)
    ∧ W4 m ρ c (Proc.devRef .tc main_v26) = W2 m ρ c (Proc.devRef .tc main_v26)
    ∧ W4 m ρ c (Proc.devRef .tc main_arg2) = W2 m ρ c (Proc.devRef .tc main_arg2)
    ∧ W4 m ρ c (Proc.devRef .tc main_arg5) = W2 m ρ c (Proc.devRef .tc main_arg5)
    ∧ W4 m ρ c (Proc.devRef .tc main_arg6) = W2 m ρ c (Proc.devRef .tc main_arg6)
    ∧ W4 m ρ c (Proc.devRef .tc main_arg7) = W2 m ρ c (Proc.devRef .tc main_arg7)
    ∧ W4 m ρ c (Proc.devRef .tc main_arg8) = W2 m ρ c (Proc.devRef .tc main_arg8) :=
  second_keeps (W2 m ρ c)

theorem third_stretch' :
    W7 m ρ c (Proc.devRef .tc main_v70) = relu128 (layer128 (W5 m ρ c (Proc.devRef .tc main_v49)) (W5 m ρ c (Proc.devRef .tc main_v1)) (W5 m ρ c (Proc.devRef .tc main_v3))
      (W5 m ρ c (Proc.devRef .tc main_v25)) (W5 m ρ c (Proc.devRef .tc main_v26)) (W5 m ρ c (Proc.devRef .tc main_arg6))) :=
  (relu_stretch₂ (W6 m ρ c)).trans (congrArg relu128 (layer_stretch₂ (W5 m ρ c)))

theorem third_keeps' :
    W7 m ρ c (Proc.devRef .tc main_v1) = W5 m ρ c (Proc.devRef .tc main_v1)
    ∧ W7 m ρ c (Proc.devRef .tc main_v3) = W5 m ρ c (Proc.devRef .tc main_v3)
    ∧ W7 m ρ c (Proc.devRef .tc main_v25) = W5 m ρ c (Proc.devRef .tc main_v25)
    ∧ W7 m ρ c (Proc.devRef .tc main_v26) = W5 m ρ c (Proc.devRef .tc main_v26)
    ∧ W7 m ρ c (Proc.devRef .tc main_arg2) = W5 m ρ c (Proc.devRef .tc main_arg2)
    ∧ W7 m ρ c (Proc.devRef .tc main_arg7) = W5 m ρ c (Proc.devRef .tc main_arg7)
    ∧ W7 m ρ c (Proc.devRef .tc main_arg8) = W5 m ρ c (Proc.devRef .tc main_arg8) :=
  third_keeps (W5 m ρ c)

theorem fourth_stretch' :
    W9 m ρ c (Proc.devRef .tc main_v102) = rows64 (layer64 (W8 m ρ c (Proc.devRef .tc main_v71)) (W8 m ρ c (Proc.devRef .tc main_v1)) (W8 m ρ c (Proc.devRef .tc main_v3))
        (W8 m ρ c (Proc.devRef .tc main_v25)) (W8 m ρ c (Proc.devRef .tc main_v26)) (W8 m ρ c (Proc.devRef .tc main_arg8))) (lab0 (W8 m ρ c (Proc.devRef .tc main_arg2)))
    ∧ W9 m ρ c (Proc.devRef .tc main_v109) = rows64 (layer64 (W8 m ρ c (Proc.devRef .tc main_v71)) (W8 m ρ c (Proc.devRef .tc main_v1)) (W8 m ρ c (Proc.devRef .tc main_v3))
        (W8 m ρ c (Proc.devRef .tc main_v25)) (W8 m ρ c (Proc.devRef .tc main_v26)) (W8 m ρ c (Proc.devRef .tc main_arg8))) (lab1 (W8 m ρ c (Proc.devRef .tc main_arg2))) :=
  fourth_stretch (W8 m ρ c)

theorem last_stretch' :
    W11 m ρ c (Proc.devRef .tc main_v111) = shapeCast S100000 (W10 m ρ c (Proc.devRef .tc main_v110)) shapeCasts_S100000x1_S100000 :=
  last_stretch (W10 m ρ c)

/-! ## The regions leave every buffer that is not one of their arrays alone -/

theorem region0_keeps :
    W2 m ρ c (Proc.devRef .tc main_v1) = W1 m ρ c (Proc.devRef .tc main_v1)
    ∧ W2 m ρ c (Proc.devRef .tc main_v3) = W1 m ρ c (Proc.devRef .tc main_v3)
    ∧ W2 m ρ c (Proc.devRef .tc main_v25) = W1 m ρ c (Proc.devRef .tc main_v25)
    ∧ W2 m ρ c (Proc.devRef .tc main_v26) = W1 m ρ c (Proc.devRef .tc main_v26)
    ∧ W2 m ρ c (Proc.devRef .tc main_arg2) = W1 m ρ c (Proc.devRef .tc main_arg2)
    ∧ W2 m ρ c (Proc.devRef .tc main_arg4) = W1 m ρ c (Proc.devRef .tc main_arg4)
    ∧ W2 m ρ c (Proc.devRef .tc main_arg5) = W1 m ρ c (Proc.devRef .tc main_arg5)
    ∧ W2 m ρ c (Proc.devRef .tc main_arg6) = W1 m ρ c (Proc.devRef .tc main_arg6)
    ∧ W2 m ρ c (Proc.devRef .tc main_arg7) = W1 m ρ c (Proc.devRef .tc main_arg7)
    ∧ W2 m ρ c (Proc.devRef .tc main_arg8) = W1 m ρ c (Proc.devRef .tc main_arg8) :=
  ⟨W2_of_ne m ρ c main_v1 (by decide), W2_of_ne m ρ c main_v3 (by decide), W2_of_ne m ρ c main_v25 (by decide), W2_of_ne m ρ c main_v26 (by decide), W2_of_ne m ρ c main_arg2 (by decide), W2_of_ne m ρ c main_arg4 (by decide), W2_of_ne m ρ c main_arg5 (by decide), W2_of_ne m ρ c main_arg6 (by decide), W2_of_ne m ρ c main_arg7 (by decide), W2_of_ne m ρ c main_arg8 (by decide)⟩

theorem region1_keeps :
    W5 m ρ c (Proc.devRef .tc main_v1) = W4 m ρ c (Proc.devRef .tc main_v1)
    ∧ W5 m ρ c (Proc.devRef .tc main_v3) = W4 m ρ c (Proc.devRef .tc main_v3)
    ∧ W5 m ρ c (Proc.devRef .tc main_v25) = W4 m ρ c (Proc.devRef .tc main_v25)
    ∧ W5 m ρ c (Proc.devRef .tc main_v26) = W4 m ρ c (Proc.devRef .tc main_v26)
    ∧ W5 m ρ c (Proc.devRef .tc main_arg2) = W4 m ρ c (Proc.devRef .tc main_arg2)
    ∧ W5 m ρ c (Proc.devRef .tc main_arg6) = W4 m ρ c (Proc.devRef .tc main_arg6)
    ∧ W5 m ρ c (Proc.devRef .tc main_arg7) = W4 m ρ c (Proc.devRef .tc main_arg7)
    ∧ W5 m ρ c (Proc.devRef .tc main_arg8) = W4 m ρ c (Proc.devRef .tc main_arg8) :=
  ⟨W5_of_ne m ρ c main_v1 (by decide), W5_of_ne m ρ c main_v3 (by decide), W5_of_ne m ρ c main_v25 (by decide), W5_of_ne m ρ c main_v26 (by decide), W5_of_ne m ρ c main_arg2 (by decide), W5_of_ne m ρ c main_arg6 (by decide), W5_of_ne m ρ c main_arg7 (by decide), W5_of_ne m ρ c main_arg8 (by decide)⟩

theorem region2_keeps :
    W8 m ρ c (Proc.devRef .tc main_v1) = W7 m ρ c (Proc.devRef .tc main_v1)
    ∧ W8 m ρ c (Proc.devRef .tc main_v3) = W7 m ρ c (Proc.devRef .tc main_v3)
    ∧ W8 m ρ c (Proc.devRef .tc main_v25) = W7 m ρ c (Proc.devRef .tc main_v25)
    ∧ W8 m ρ c (Proc.devRef .tc main_v26) = W7 m ρ c (Proc.devRef .tc main_v26)
    ∧ W8 m ρ c (Proc.devRef .tc main_arg2) = W7 m ρ c (Proc.devRef .tc main_arg2)
    ∧ W8 m ρ c (Proc.devRef .tc main_arg8) = W7 m ρ c (Proc.devRef .tc main_arg8) :=
  ⟨W8_of_ne m ρ c main_v1 (by decide), W8_of_ne m ρ c main_v3 (by decide), W8_of_ne m ρ c main_v25 (by decide), W8_of_ne m ρ c main_v26 (by decide), W8_of_ne m ρ c main_arg2 (by decide), W8_of_ne m ρ c main_arg8 (by decide)⟩

/-! ## The values along the run -/

/-- Region 0's exit: the first product. -/
theorem at_h1 : W2 m ρ c (Proc.devRef .tc main_v27) = h1 m c := by
  refine (W2_arr m ρ c 2).trans ((Cert.KernelIdeal.RegionValue.arr0 (V1 m ρ) c).trans ?_)
  show matProd (A := 50000) (K := 128) (B := 128) (W1 m ρ c (Proc.devRef .tc main_arg0)) (W1 m ρ c (Proc.devRef .tc main_arg3)) = _
  rw [(first_args' m ρ c).1, (first_args' m ρ c).2.2.1]

/-- Region 1's entry: the first layer's output. -/
theorem at_z1 : W4 m ρ c (Proc.devRef .tc main_v48) = z1 m c := by
  obtain ⟨s1, s3, s25, s26⟩ := first_stretch' m ρ c
  obtain ⟨a0, a2, a3, a4, a5, a6, a7, a8⟩ := first_args' m ρ c
  obtain ⟨k1, k3, k25, k26, k2, k4, k5, k6, k7, k8⟩ := region0_keeps m ρ c
  rw [second_stretch', at_h1, k1, k3, k25, k26, k4, s1, s3, s25, s26, a4]

/-- Region 1's exit: the second product. -/
theorem at_h2 : W5 m ρ c (Proc.devRef .tc main_v49) = h2 m c := by
  obtain ⟨a0, a2, a3, a4, a5, a6, a7, a8⟩ := first_args' m ρ c
  obtain ⟨k1, k3, k25, k26, k2, k4, k5, k6, k7, k8⟩ := region0_keeps m ρ c
  obtain ⟨j1, j3, j25, j26, j2, j5, j6, j7, j8⟩ := second_keeps' m ρ c
  refine (W5_arr m ρ c 2).trans ((Cert.KernelIdeal.RegionValue.arr1 (V4 m ρ) c).trans ?_)
  show matProd (A := 50000) (K := 128) (B := 128) (W4 m ρ c (Proc.devRef .tc main_v48)) (W4 m ρ c (Proc.devRef .tc main_arg5)) = _
  rw [at_z1, j5, k5, a5]

/-- Region 2's entry: the second layer's output. -/
theorem at_z2 : W7 m ρ c (Proc.devRef .tc main_v70) = z2 m c := by
  obtain ⟨s1, s3, s25, s26⟩ := first_stretch' m ρ c
  obtain ⟨a0, a2, a3, a4, a5, a6, a7, a8⟩ := first_args' m ρ c
  obtain ⟨k1, k3, k25, k26, k2, k4, k5, k6, k7, k8⟩ := region0_keeps m ρ c
  obtain ⟨j1, j3, j25, j26, j2, j5, j6, j7, j8⟩ := second_keeps' m ρ c
  obtain ⟨r1, r3, r25, r26, r2, r6, r7, r8⟩ := region1_keeps m ρ c
  rw [third_stretch', at_h2, r1, r3, r25, r26, r6, j1, j3, j25, j26, j6, k1, k3, k25, k26, k6, s1, s3, s25, s26, a6]

/-- Region 2's exit: the third product. -/
theorem at_h3 : W8 m ρ c (Proc.devRef .tc main_v71) = h3 m c := by
  obtain ⟨a0, a2, a3, a4, a5, a6, a7, a8⟩ := first_args' m ρ c
  obtain ⟨k1, k3, k25, k26, k2, k4, k5, k6, k7, k8⟩ := region0_keeps m ρ c
  obtain ⟨j1, j3, j25, j26, j2, j5, j6, j7, j8⟩ := second_keeps' m ρ c
  obtain ⟨r1, r3, r25, r26, r2, r6, r7, r8⟩ := region1_keeps m ρ c
  obtain ⟨t1, t3, t25, t26, t2, t7, t8⟩ := third_keeps' m ρ c
  refine (W8_arr m ρ c 2).trans ((Cert.KernelIdeal.RegionValue.arr2 (V7 m ρ) c).trans ?_)
  show matProd (A := 50000) (K := 128) (B := 64) (W7 m ρ c (Proc.devRef .tc main_v70)) (W7 m ρ c (Proc.devRef .tc main_arg7)) = _
  rw [at_z2, t7, r7, j7, k7, a7]

/-- Region 3's entry: the embeddings' rows at the label edges' two endpoints. -/
theorem at_rows :
    W9 m ρ c (Proc.devRef .tc main_v102) = rows64 (z3 m c) (lab0 (m ((c : Thread nD τ).loc main_arg2)))
    ∧ W9 m ρ c (Proc.devRef .tc main_v109) = rows64 (z3 m c) (lab1 (m ((c : Thread nD τ).loc main_arg2))) := by
  obtain ⟨s1, s3, s25, s26⟩ := first_stretch' m ρ c
  obtain ⟨a0, a2, a3, a4, a5, a6, a7, a8⟩ := first_args' m ρ c
  obtain ⟨k1, k3, k25, k26, k2, k4, k5, k6, k7, k8⟩ := region0_keeps m ρ c
  obtain ⟨j1, j3, j25, j26, j2, j5, j6, j7, j8⟩ := second_keeps' m ρ c
  obtain ⟨r1, r3, r25, r26, r2, r6, r7, r8⟩ := region1_keeps m ρ c
  obtain ⟨t1, t3, t25, t26, t2, t7, t8⟩ := third_keeps' m ρ c
  obtain ⟨u1, u3, u25, u26, u2, u8⟩ := region2_keeps m ρ c
  obtain ⟨f0, f1⟩ := fourth_stretch' m ρ c
  constructor
  · rw [f0, at_h3, u1, u3, u25, u26, u8, u2, t1, t3, t25, t26, t8, t2, r1, r3, r25, r26, r8, r2, j1, j3, j25, j26, j8, j2,
      k1, k3, k25, k26, k8, k2, s1, s3, s25, s26, a8, a2]
  · rw [f1, at_h3, u1, u3, u25, u26, u8, u2, t1, t3, t25, t26, t8, t2, r1, r3, r25, r26, r8, r2, j1, j3, j25, j26, j8, j2,
      k1, k3, k25, k26, k8, k2, s1, s3, s25, s26, a8, a2]

/-- The program's result: the label edges' scores, the column of row products recast as a vector. -/
theorem result_eq :
    W11 m ρ c (Proc.devRef .tc main_v111)
      = shapeCast S100000 (rowDot (A := 100000) (K := 64) (rows64 (z3 m c) (lab0 (m ((c : Thread nD τ).loc main_arg2)))) (rows64 (z3 m c) (lab1 (m ((c : Thread nD τ).loc main_arg2)))))
          shapeCasts_S100000x1_S100000 := by
  obtain ⟨g0, g1⟩ := at_rows m ρ c
  rw [last_stretch']
  refine congrArg (fun v => shapeCast S100000 v shapeCasts_S100000x1_S100000) ?_
  refine (W10_arr m ρ c 2).trans ((Cert.KernelIdeal.RegionValue.arr3 (V9 m ρ) c).trans ?_)
  show rowDot (A := 100000) (K := 64) (W9 m ρ c (Proc.devRef .tc main_v102)) (W9 m ρ c (Proc.devRef .tc main_v109)) = _
  rw [g0, g1]

/-- The same, the embeddings spelt as the network's function of the arguments. -/
theorem result_eq' :
    W11 m ρ c (Proc.devRef .tc main_v111)
      = shapeCast S100000 (rowDot (A := 100000) (K := 64)
          (rows64 (embed (matProd (A := 50000) (K := 128) (B := 128)) (matProd (A := 50000) (K := 128) (B := 64))
            (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (lab0 (m ((c : Thread nD τ).loc main_arg2))))
          (rows64 (embed (matProd (A := 50000) (K := 128) (B := 128)) (matProd (A := 50000) (K := 128) (B := 64))
            (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (lab1 (m ((c : Thread nD τ).loc main_arg2)))))
          shapeCasts_S100000x1_S100000 := by
  rw [← z3_eq]
  exact result_eq m ρ c

end Cert.KernelIdeal.KernelValue

end
-- ==== Proof.RefValue.lean ====
/-
  The idealized reference program's result as the graph network's function of its arguments.

  The reference computes, on the host, three aggregation layers (recomputing the degrees and the edge weights in each
  layer from the same edge list, which gives the same arrays each time), with the dense products done by the host, and
  scores every label edge by the sum over the 64 features of the product of its endpoints' embeddings.
-/
import proofs.«104224_j18820546691088_1_alg».proof.Proof.Gen.ReferenceIdeal.Run
import proofs.«104224_j18820546691088_1_alg».proof.Proof.LayerSpec

set_option maxRecDepth 16384

noncomputable section

namespace Cert.ReferenceIdeal.RefValue

open Cert.ReferenceIdeal Cert.ReferenceIdeal.Gen Cert.Gcn
open Idealize.ShloMosaic Idealize.ShloMosaic.TcCoe Idealize.SL.Sem

/-- The host's product of a [50000,128] array with a [128,128] matrix. -/
def hostMM₁ (l : FV S50000x128) (r : FV S128x128) : FV S50000x128 :=
  Host.dotGeneral (F := Ideal) dot_S50000x128_S128x128_S50000x128_1_0_0_1_n_n none l r
/-- The host's product of a [50000,128] array with a [128,64] matrix. -/
def hostMM₃ (l : FV S50000x128) (r : FV S128x64) : FV S50000x64 :=
  Host.dotGeneral (F := Ideal) dot_S50000x128_S128x64_S50000x64_1_0_0_1_n_n none l r

/-- The scores as the host computes them from the embeddings' rows: a sum over the feature axis from zero. -/
def hostScores (a b : FV S100000x64) : FV S100000 :=
  Host.reduceAdd (F := Ideal) (mulf a b) (constant (F := Ideal) S_ .f32 0x00000000#32) reducesTo_S100000x64_S100000_d1 h_S_

set_option maxHeartbeats 4000000 in
/-- The reference's result term is the network's scores, the dense products the host's. -/
theorem res_eq (m : (ℓ : Loc nD τ sig) → Buf (Elt Ideal) ℓ) (c : Dev nD) :
    Cert.ReferenceIdeal.Value.res_main_v157 (F := Ideal) m c
      = hostScores
          (rows64 (embed hostMM₁ hostMM₃ (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
            (lab0 (m ((c.tc : Thread nD τ).loc main_arg2))))
          (rows64 (embed hostMM₁ hostMM₃ (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
            (lab1 (m ((c.tc : Thread nD τ).loc main_arg2)))) := by
  unfold Cert.ReferenceIdeal.Value.res_main_v157
  rfl

end Cert.ReferenceIdeal.RefValue

end
-- ==== Proof.HostProducts.lean ====
/-
  The host's two dense products are the matrix product, as whole arrays.

  The host multiplies a [50000, 128] array by a [128, 128] matrix, and by a [128, 64] matrix, contracting the first
  array's columns against the matrix's rows. Entry (a, b) of either result is the sum over k of the array's entry
  (a, k) times the matrix's entry (k, b): the one contracted coordinate runs over the 128 columns, the result's row
  coordinate is the array's row, and the result's column coordinate is the matrix's column.
-/
import proofs.«104224_j18820546691088_1_alg».proof.Proof.Gen.ReferenceIdeal
import proofs.«104224_j18820546691088_1_alg».proof.Proof.LayerSpec

noncomputable section

namespace Cert.ReferenceIdeal.RefValue

open Cert.ReferenceIdeal Cert.ReferenceIdeal.Gen Cert.Gcn
open Idealize.ShloMosaic Idealize.ShloMosaic.TcCoe Idealize.SL.Sem

/-- The row coordinate of the left operand's entry that enters the [50000, 128] by [128, 128] product at an index
    of the result is the result's row. -/
theorem product₁_left_row (j : S50000x128.Idx) (k : dot_S50000x128_S128x128_S50000x128_1_0_0_1_n_n.contr.Idx) :
    (dot_S50000x128_S128x128_S50000x128_1_0_0_1_n_n.lhsIdx j k 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

/-- The column coordinate of the right operand's entry that enters it is the result's column. -/
theorem product₁_right_col (j : S50000x128.Idx) (k : dot_S50000x128_S128x128_S50000x128_1_0_0_1_n_n.contr.Idx) :
    (dot_S50000x128_S128x128_S50000x128_1_0_0_1_n_n.rhsIdx j k 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The same two facts for the [50000, 128] by [128, 64] product. -/
theorem product₃_left_row (j : S50000x64.Idx) (k : dot_S50000x128_S128x64_S50000x64_1_0_0_1_n_n.contr.Idx) :
    (dot_S50000x128_S128x64_S50000x64_1_0_0_1_n_n.lhsIdx j k 0).val = (j 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

theorem product₃_right_col (j : S50000x64.Idx) (k : dot_S50000x128_S128x64_S50000x64_1_0_0_1_n_n.contr.Idx) :
    (dot_S50000x128_S128x64_S50000x64_1_0_0_1_n_n.rhsIdx j k 1).val = (j 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's product of a [50000, 128] array with a [128, 128] matrix is the matrix product. -/
theorem hostProduct₁_eq :
    (fun (l : FV S50000x128) (r : FV S128x128) =>
        Host.dotGeneral (F := Ideal) dot_S50000x128_S128x128_S50000x128_1_0_0_1_n_n none l r)
      = (Cert.Gcn.matProd : FV S50000x128 → FV S128x128 → FV S50000x128) :=
  funext fun l => funext fun r =>
    Cert.Gcn.hostDot (A := 50000) (K := 128) (B := 128) dot_S50000x128_S128x128_S50000x128_1_0_0_1_n_n
      rfl rfl rfl rfl product₁_left_row product₁_right_col l r

/-- The host's product of a [50000, 128] array with a [128, 64] matrix is the matrix product. -/
theorem hostProduct₃_eq :
    (fun (l : FV S50000x128) (r : FV S128x64) =>
        Host.dotGeneral (F := Ideal) dot_S50000x128_S128x64_S50000x64_1_0_0_1_n_n none l r)
      = (Cert.Gcn.matProd : FV S50000x128 → FV S128x64 → FV S50000x64) :=
  funext fun l => funext fun r =>
    Cert.Gcn.hostDot (A := 50000) (K := 128) (B := 64) dot_S50000x128_S128x64_S50000x64_1_0_0_1_n_n
      rfl rfl rfl rfl product₃_left_row product₃_right_col l r

end Cert.ReferenceIdeal.RefValue

end
-- ==== Proof.LibHostSums.lean ====
/-
  Host float sums over one axis, read at coordinates, over the extended reals: the initial value plus the sum of
  the operand's entries along the reduced axis.

    [A, B, C] summed over axis 0, at (b, c):  init + sum over k < A of x(k, b, c)
    [A, B]    summed over axis 1, at a:       init + sum over k < B of x(a, k)
    [A, B]    summed over axis 0, at b:       init + sum over k < A of x(k, b)
-/
import Idealize.ShloMosaic.PureOps.Ideal.Laws
import Idealize.ShloMosaic.Lib.ValueIdx
import Idealize.ShloMosaic.Lib.Pipeline.Value

noncomputable section

namespace Cert.LibHostSums

open Idealize.ShloMosaic Idealize.ShloMosaic.ValueIdx

/-- A host float sum over the first axis of an [A, B, C] array, at (b, c). -/
theorem hsum_first3 {A B C : ℕ} (x : FVec Ideal ⟨3, ![A, B, C]⟩ .f32) (init : FVec Ideal ⟨0, ![]⟩ .f32)
    (h' : (⟨3, ![A, B, C]⟩ : Shape).ReducesTo [0] ⟨2, ![B, C]⟩) (h0 : 0 < (⟨0, ![]⟩ : Shape).numel)
    (h : (⟨3, ![A, B, C]⟩ : Shape).Reduces [0] ⟨2, ![B, C]⟩) (b : Fin B) (c : Fin C) :
    Host.reduceAdd x init h' h0 (ix2 b c) = init (Shape.Idx.first h0) + ∑ k : Fin A, x (ix3 k b c) := by
  simp only [Host.reduceAdd, Ideal.hostReduceAdd_def]
  rw [Ideal.hostReduceAdd_single h' h]
  refine congrArg (_ + ·) (Finset.sum_congr rfl fun k _ => ?_)
  exact congrArg x (funext fun d => Fin.ext (by
    match d with
    | ⟨0, _⟩ => rfl
    | ⟨1, _⟩ => rfl
    | ⟨2, _⟩ => rfl))

/-- A host float sum over the last axis of an [A, B] array, at a. -/
theorem hsum_last2 {A B : ℕ} (x : FVec Ideal ⟨2, ![A, B]⟩ .f32) (init : FVec Ideal ⟨0, ![]⟩ .f32)
    (h' : (⟨2, ![A, B]⟩ : Shape).ReducesTo [1] ⟨1, ![A]⟩) (h0 : 0 < (⟨0, ![]⟩ : Shape).numel)
    (h : (⟨2, ![A, B]⟩ : Shape).Reduces [1] ⟨1, ![A]⟩) (a : Fin A) :
    Host.reduceAdd x init h' h0 (ix1 a) = init (Shape.Idx.first h0) + ∑ k : Fin B, x (ix2 a k) := by
  simp only [Host.reduceAdd, Ideal.hostReduceAdd_def]
  rw [Ideal.hostReduceAdd_single h' h]
  refine congrArg (_ + ·) (Finset.sum_congr rfl fun k _ => ?_)
  exact congrArg x (funext fun d => Fin.ext (by
    match d with
    | ⟨0, _⟩ => rfl
    | ⟨1, _⟩ => rfl))

/-- A host float sum over the first axis of an [A, B] array, at b. -/
theorem hsum_first2 {A B : ℕ} (x : FVec Ideal ⟨2, ![A, B]⟩ .f32) (init : FVec Ideal ⟨0, ![]⟩ .f32)
    (h' : (⟨2, ![A, B]⟩ : Shape).ReducesTo [0] ⟨1, ![B]⟩) (h0 : 0 < (⟨0, ![]⟩ : Shape).numel)
    (h : (⟨2, ![A, B]⟩ : Shape).Reduces [0] ⟨1, ![B]⟩) (b : Fin B) :
    Host.reduceAdd x init h' h0 (ix1 b) = init (Shape.Idx.first h0) + ∑ k : Fin A, x (ix2 k b) := by
  simp only [Host.reduceAdd, Ideal.hostReduceAdd_def]
  rw [Ideal.hostReduceAdd_single h' h]
  refine congrArg (_ + ·) (Finset.sum_congr rfl fun k _ => ?_)
  exact congrArg x (funext fun d => Fin.ext (by
    match d with
    | ⟨0, _⟩ => rfl
    | ⟨1, _⟩ => rfl))

end Cert.LibHostSums

end
-- ==== Proof.ScoreBridge.lean ====
/-
  The host's spelling of the edge scores is the row-by-row dot product recast as a vector.

  The host multiplies two [100000, 64] arrays entry by entry and sums each row over its 64 columns, starting from
  the zero word: at row i this is 0 + the sum over k of a(i, k) b(i, k). The [100000, 1] column of row-by-row dot
  products, recast as a vector of 100000 entries, holds at i the column's entry (i, 0), which is the same sum.
-/
import proofs.«104224_j18820546691088_1_alg».proof.Proof.Spec
import proofs.«104224_j18820546691088_1_alg».proof.Proof.LibHostSums
import proofs.«104224_j18820546691088_1_alg».proof.Proof.LibColumnOps

noncomputable section

namespace Cert.Gcn

open Idealize.ShloMosaic Idealize.ShloMosaic.ValueIdx

/-- The host's sum over the 64 columns of the entrywise product, from the zero word, is the column of
    row-by-row dot products recast as a vector. -/
theorem scores_eq (a b : FVec Ideal ⟨2, ![100000, 64]⟩ .f32)
    (h' : (⟨2, ![100000, 64]⟩ : Shape).ReducesTo [1] ⟨1, ![100000]⟩) (h0 : 0 < (⟨0, ![]⟩ : Shape).numel)
    (hc : (⟨2, ![100000, 1]⟩ : Shape).ShapeCasts ⟨1, ![100000]⟩) :
    Host.reduceAdd (F := Ideal) (mulf a b) (constant (F := Ideal) ⟨0, ![]⟩ .f32 0x00000000#32) h' h0
      = shapeCast ⟨1, ![100000]⟩ (rowDot a b) hc := by
  funext i
  obtain ⟨r, rfl⟩ : ∃ r : Fin 100000, i = ix1 r := ⟨i 0, eq_ix1 i⟩
  refine (Cert.LibHostSums.hsum_last2 (mulf a b) _ h' h0 (by decide) r).trans ?_
  refine Eq.trans ?_ (Cert.LibColumnOps.vec_of_col (rowDot a b) hc r).symm
  rw [constant_apply, Ideal.ofBits_zero_f32, zero_add]
  rfl

end Cert.Gcn

end
-- ==== Proof.RefBridge.lean ====
/-
  The reference's scores are the column of row products, recast as a vector, over the plain matrix product.

  The host's products are the plain matrix product entry by entry, and the host's sum over the 64 features of the
  products of two rows, started from zero, is the row product; so the reference's result is the same function of the
  arguments as the kernel program's.
-/
import proofs.«104224_j18820546691088_1_alg».proof.Proof.RefValue
import proofs.«104224_j18820546691088_1_alg».proof.Proof.HostProducts
import proofs.«104224_j18820546691088_1_alg».proof.Proof.ScoreBridge

set_option maxRecDepth 16384

noncomputable section

namespace Cert.ReferenceIdeal.RefValue

open Cert.ReferenceIdeal Cert.ReferenceIdeal.Gen Cert.Gcn
open Idealize.ShloMosaic Idealize.ShloMosaic.TcCoe Idealize.SL.Sem

theorem hostMM₁_eq : hostMM₁ = (matProd : FV S50000x128 → FV S128x128 → FV S50000x128) := hostProduct₁_eq
theorem hostMM₃_eq : hostMM₃ = (matProd : FV S50000x128 → FV S128x64 → FV S50000x64) := hostProduct₃_eq

/-- The host's scores of two [100000,64] arrays are their row products as a vector. -/
theorem hostScores_eq (a b : FV S100000x64) (hc : S100000x1.ShapeCasts S100000) :
    hostScores a b = shapeCast S100000 (rowDot (A := 100000) (K := 64) a b) hc :=
  scores_eq a b reducesTo_S100000x64_S100000_d1 h_S_ hc

/-- The reference's result as the network's function over the plain matrix product. -/
theorem res_eq' (m : (ℓ : Loc nD τ sig) → Buf (Elt Ideal) ℓ) (c : Dev nD) (hc : S100000x1.ShapeCasts S100000) :
    Cert.ReferenceIdeal.Value.res_main_v157 (F := Ideal) m c
      = shapeCast S100000 (rowDot (A := 100000) (K := 64)
          (rows64 (embed (matProd (A := 50000) (K := 128) (B := 128)) (matProd (A := 50000) (K := 128) (B := 64))
              (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
            (lab0 (m ((c.tc : Thread nD τ).loc main_arg2))))
          (rows64 (embed (matProd (A := 50000) (K := 128) (B := 128)) (matProd (A := 50000) (K := 128) (B := 64))
              (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
            (lab1 (m ((c.tc : Thread nD τ).loc main_arg2))))) hc := by
  rw [res_eq, hostMM₁_eq, hostMM₃_eq]
  exact hostScores_eq _ _ hc

end Cert.ReferenceIdeal.RefValue

end
-- ==== Proof.LibRunBoth.lean ====
/-
  Two facts about every weakly fair execution of one program from one state hold together.

  `θ_run defs p s Q` says: every weakly fair execution of `p` from the memory `s` is finite, never stuck, and ends in a
  final state satisfying `Q`. Termination and freedom from deadlock do not mention `Q`, and a final state reached
  satisfies each postcondition that every final state reached satisfies. So from the same program and the same state,
  `Q` and `Q'` may be concluded together (`θ_run_both`). This lets a value statement about a program be proved with
  only the NEW conjunct in its postcondition, and joined afterwards to a frame statement already in hand.
-/
import Idealize.ShloMosaic.Machine.Run

namespace Idealize.ShloMosaic

open Idealize.SL.Sem

variable {nD : Nat} {τ : Topo} {sig : RefSig} {Val : EltTy → Type} {Λ : Labels}

/-- Every weakly fair execution from `s₀` ends satisfying `Q`, and every one ends satisfying `Q'`: every one ends
    satisfying both. -/
theorem MeshRun.both {defs : Defs nD τ sig Val Λ} {Q Q' : MemSt nD τ sig Val → Prop} {s₀ : RunSt nD τ sig Val Λ}
    (h : MeshRun defs Q s₀) (h' : MeshRun defs Q' s₀) : MeshRun defs (fun m => Q m ∧ Q' m) s₀ :=
  ⟨fun t ht hf => ⟨h.post t ht hf, h'.post t ht hf⟩, h.progress, h.fair⟩

/-- The same for the observation of a loaded program. -/
theorem θ_run_both (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  MeshRun.both (Q := fun m' => Q (⟨⟩, m')) (Q' := fun m' => Q' (⟨⟩, m')) h h'

end Idealize.ShloMosaic
-- ==== Proof.lean ====
/-
  A three-layer graph convolution network with a dot-product edge decoder: the kernel program against its reference,
  over the extended reals.

  Both programs compute, from node features x [50000,128], an edge list [2,800000], label edges [2,100000] and three
  weight matrices with biases: the inverse root degrees of the nodes (one plus the number of edges that target a
  node), the edge weights dinv(source)·dinv(target) and the self weights dinv²; three layers, each a dense product
  followed by the weighted sum over incoming edges, the self term and the bias, the first two followed by a maximum
  with zero; and for every label edge the dot product of its two endpoints' 64-wide embeddings. The kernel program
  does the three dense products and the final row products in tiled kernels (2000 rows, respectively 10000 label
  edges, per grid point; its operands rounded to a narrower format first, which changes nothing over the extended
  reals) and computes the degrees and weights once; the reference does every step on the host and recomputes the
  degrees and weights in each layer. A tiled product's blocks cover the array and each block entry is the plain sum
  over the contracted coordinate, which is also what the host's product is; the kernel's row products are the host's
  sum over the feature axis started from zero. Everything else is the same operation applied to equal arrays, so the
  two results are one function of the arguments, and no property of the inputs is needed.

  The three frames are the generated ones (the reference's is its run with the result dropped); the idealization
  rewrote nothing, so it is preserved trivially.
-/
import proofs.«104224_j18820546691088_1_alg».proof.Defs
import proofs.«104224_j18820546691088_1_alg».proof.Proof.Gen.Kernel
import proofs.«104224_j18820546691088_1_alg».proof.Proof.Gen.Kernel.Frame
import proofs.«104224_j18820546691088_1_alg».proof.Proof.Gen.KernelIdeal
import proofs.«104224_j18820546691088_1_alg».proof.Proof.Gen.KernelIdeal.Frame
import proofs.«104224_j18820546691088_1_alg».proof.Proof.Gen.ReferenceIdeal
import proofs.«104224_j18820546691088_1_alg».proof.Proof.Gen.Pre_finite_inputs
import proofs.«104224_j18820546691088_1_alg».proof.Proof.Gen.ReferenceIdeal.Run
import proofs.«104224_j18820546691088_1_alg».proof.Proof.KernelRun
import proofs.«104224_j18820546691088_1_alg».proof.Proof.KernelValue
import proofs.«104224_j18820546691088_1_alg».proof.Proof.RefBridge
import proofs.«104224_j18820546691088_1_alg».proof.Proof.LibRunBoth
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the label edges' scores: the rows of the network's embeddings at the two endpoints,
    multiplied entry by entry and summed over the 64 features. -/
theorem algebraic : Cert.algebraic_KernelIdeal_ReferenceIdeal := by
  intro m ρ m' ρ' _ hagree
  refine ⟨fun c => shapeCast Cert.KernelIdeal.S100000 (Cert.Gcn.rowDot (A := 100000) (K := 64)
      (Cert.Gcn.rows64 (Cert.Gcn.embed (Cert.Gcn.matProd (A := 50000) (K := 128) (B := 128)) (Cert.Gcn.matProd (A := 50000) (K := 128) (B := 64))
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (Cert.Gcn.lab0 (m ((c.tc : Thread Cert.KernelIdeal.nD Cert.KernelIdeal.τ).loc Cert.KernelIdeal.main_arg2))))
      (Cert.Gcn.rows64 (Cert.Gcn.embed (Cert.Gcn.matProd (A := 50000) (K := 128) (B := 128)) (Cert.Gcn.matProd (A := 50000) (K := 128) (B := 64))
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (Cert.Gcn.lab1 (m ((c.tc : Thread Cert.KernelIdeal.nD Cert.KernelIdeal.τ).loc Cert.KernelIdeal.main_arg2)))))
      Cert.KernelIdeal.Gen.shapeCasts_S100000x1_S100000, ?_, ?_⟩
  · refine (θ_run Cert.KernelIdeal.defs _ _).mono (fun r h c => ⟨(h.1 c).trans (Cert.KernelIdeal.KernelValue.result_eq' m ρ c), h.2 c⟩)
      (θ_run_both _ _ _ _ _ (Cert.KernelIdeal.ResultRun.run_result (F := Ideal) m ρ) (Cert.KernelIdeal.Gen.frame (F := Ideal) m ρ))
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq' m' c Cert.KernelIdeal.Gen.shapeCasts_S100000x1_S100000]
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
